-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S300000x9 : Shape := ⟨2, ![300000, 9]⟩
abbrev S64 : Shape := ⟨1, ![64]⟩
abbrev S576x64 : Shape := ⟨2, ![576, 64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64 : S_.BroadcastsInDim S64 (![] : Fin 0 → Fin S64.rank)
  reducesTo_S64_S_d0 : S64.ReducesTo [0] S_
  bcast_S_S576x64 : S_.BroadcastsInDim S576x64 (![] : Fin 0 → Fin S576x64.rank)
  reducesTo_S576x64_S_d0_1 : S576x64.ReducesTo [0, 1] S_

variable [Facts]

def fn_part1 {F : FTy → Type} [FloatOps F] (main_v13 : IVec S_ 1) (main_v16 : IVec S576x64 1) : IVec S_ 1 :=
  let main_c_5 : IVec S_ 1 := constantI S_ 1 1#1
  let main_v17 : IVec S_ 1 := (fun x v => Host.reduce IntOp.andi x v reducesTo_S576x64_S_d0_1 h_S_) main_v16 main_c_5
  let main_v18 : IVec S_ 1 := andi main_v13 main_v17
  main_v18

def fn {F : FTy → Type} [FloatOps F] (main_arg0 : FVec F S100000x64 .f32) (main_arg1 : IVec S300000x9 32) (main_arg2 : FVec F S64 .f32) (main_arg3 : FVec F S64 .f32) (main_arg4 : FVec F S576x64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64 .f32 := Host.absf main_arg2
  let main_cst_0 : FVec F S_ .f32 := constant S_ .f32 0x7F800000#32
  let main_v5 : FVec F S64 .f32 := broadcastInDim S64 ![] bcast_S_S64 main_cst_0
  let main_v6 : IVec S64 1 := cmpf .olt main_v4 main_v5
  let main_c_1 : IVec S_ 1 := constantI S_ 1 1#1
  let main_v7 : IVec S_ 1 := (fun x v => Host.reduce IntOp.andi x v reducesTo_S64_S_d0 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S576x64 .f32 := Host.absf main_arg4
  let main_cst_4 : FVec F S_ .f32 := constant S_ .f32 0x7F800000#32
  let main_v15 : FVec F S576x64 .f32 := broadcastInDim S576x64 ![] bcast_S_S576x64 main_cst_4
  let main_v16 : IVec S576x64 1 := cmpf .olt main_v14 main_v15
  fn_part1 (F := F) main_v13 main_v16
-- ==== Kernel.lean ====
abbrev S100000x64 : Shape := ⟨2, ![100000, 64]⟩
abbrev S300000x9 : Shape := ⟨2, ![300000, 9]⟩
abbrev S64 : Shape := ⟨1, ![64]⟩
abbrev S576x64 : Shape := ⟨2, ![576, 64]⟩
abbrev S2x50000x64 : Shape := ⟨3, ![2, 50000, 64]⟩
abbrev S2x1x64 : Shape := ⟨3, ![2, 1, 64]⟩
abbrev S1x5000x64 : Shape := ⟨3, ![1, 5000, 64]⟩
abbrev S1x1x64 : Shape := ⟨3, ![1, 1, 64]⟩
abbrev S1x64 : Shape := ⟨2, ![1, 64]⟩
abbrev S5000x64 : Shape := ⟨2, ![5000, 64]⟩
abbrev S_ : Shape := ⟨0, ![]⟩
abbrev S32x2 : Shape := ⟨2, ![32, 2]⟩
abbrev S32 : Shape := ⟨1, ![32]⟩
abbrev S300000x9x1 : Shape := ⟨3, ![300000, 9, 1]⟩
abbrev S300000x9x64 : Shape := ⟨3, ![300000, 9, 64]⟩
abbrev S300000x576 : Shape := ⟨2, ![300000, 576]⟩
abbrev S300000x64 : Shape := ⟨2, ![300000, 64]⟩
abbrev S10000x576 : Shape := ⟨2, ![10000, 576]⟩
abbrev S10000x64 : Shape := ⟨2, ![10000, 64]⟩

abbrev nBuf : Space → Nat
  | .hbm => 53
  | .vmem => 17
  | .smem => 0
  | _ => 0

abbrev bufTy : (tb : Table) → Fin (tcTables nBuf tb) → BufTy
  | .hbm, ⟨0, _⟩ => ⟨S100000x64, .f32⟩
  | .hbm, ⟨1, _⟩ => ⟨S300000x9, .i32⟩
  | .hbm, ⟨2, _⟩ => ⟨S64, .f32⟩
  | .hbm, ⟨3, _⟩ => ⟨S64, .f32⟩
  | .hbm, ⟨4, _⟩ => ⟨S576x64, .f32⟩
  | .hbm, ⟨5, _⟩ => ⟨S2x50000x64, .f32⟩
  | .hbm, ⟨6, _⟩ => ⟨S2x1x64, .f32⟩
  | .hbm, ⟨7, _⟩ => ⟨S2x1x64, .f32⟩
  | .hbm, ⟨8, _⟩ => ⟨S_, .f32⟩
  | .hbm, ⟨9, _⟩ => ⟨S1x64, .f32⟩
  | .hbm, ⟨10, _⟩ => ⟨S_, .f32⟩
  | .hbm, ⟨11, _⟩ => ⟨S1x64, .f32⟩
  | .hbm, ⟨12, _⟩ => ⟨S32x2, .f32⟩
  | .hbm, ⟨13, _⟩ => ⟨S_, .f32⟩
  | .hbm, ⟨14, _⟩ => ⟨S32, .f32⟩
  | .hbm, ⟨15, _⟩ => ⟨S32x2, .f32⟩
  | .hbm, ⟨16, _⟩ => ⟨S_, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S_, .f32⟩
  | .hbm, ⟨22, _⟩ => ⟨S32, .f32⟩
  | .hbm, ⟨23, _⟩ => ⟨S32, .f32⟩
  | .hbm, ⟨24, _⟩ => ⟨S32, .f32⟩
  | .hbm, ⟨25, _⟩ => ⟨S32, .f32⟩
  | .hbm, ⟨26, _⟩ => ⟨S_, .f32⟩
  | .hbm, ⟨27, _⟩ => ⟨S32, .f32⟩
  | .hbm, ⟨28, _⟩ => ⟨S32, .f32⟩
  | .hbm, ⟨29, _⟩ => ⟨S32, .f32⟩
  | .hbm, ⟨30, _⟩ => ⟨S32x2, .f32⟩
  | .hbm, ⟨31, _⟩ => ⟨S64, .f32⟩
  | .hbm, ⟨32, _⟩ => ⟨S32x2, .f32⟩
  | .hbm, ⟨33, _⟩ => ⟨S64, .f32⟩
  | .hbm, ⟨34, _⟩ => ⟨S64, .f32⟩
  | .hbm, ⟨35, _⟩ => ⟨S1x64, .f32⟩
  | .hbm, ⟨36, _⟩ => ⟨S64, .f32⟩
  | .hbm, ⟨37, _⟩ => ⟨S64, .f32⟩
  | .hbm, ⟨38, _⟩ => ⟨S64, .f32⟩
  | .hbm, ⟨39, _⟩ => ⟨S1x64, .f32⟩
  | .hbm, ⟨40, _⟩ => ⟨S100000x64, .bf16⟩
  | .hbm, ⟨41, _⟩ => ⟨S_, .i32⟩
  | .hbm, ⟨42, _⟩ => ⟨S300000x9, .i32⟩
  | .hbm, ⟨43, _⟩ => ⟨S300000x9, .i1⟩
  | .hbm, ⟨44, _⟩ => ⟨S_, .i32⟩
  | .hbm, ⟨45, _⟩ => ⟨S300000x9, .i32⟩
  | .hbm, ⟨46, _⟩ => ⟨S300000x9, .i32⟩
  | .hbm, ⟨47, _⟩ => ⟨S300000x9, .i32⟩
  | .hbm, ⟨48, _⟩ => ⟨S300000x9x1, .i32⟩
  | .hbm, ⟨49, _⟩ => ⟨S300000x9x64, .bf16⟩
  | .hbm, ⟨50, _⟩ => ⟨S300000x576, .bf16⟩
  | .hbm, ⟨51, _⟩ => ⟨S576x64, .bf16⟩
  | .hbm, ⟨52, _⟩ => ⟨S300000x64, .f32⟩
  | .local _ .vmem, ⟨0, _⟩ => ⟨S1x5000x64, .f32⟩
  | .local _ .vmem, ⟨1, _⟩ => ⟨S1x5000x64, .f32⟩
  | .local _ .vmem, ⟨2, _⟩ => ⟨S1x1x64, .f32⟩
  | .local _ .vmem, ⟨3, _⟩ => ⟨S1x1x64, .f32⟩
  | .local _ .vmem, ⟨4, _⟩ => ⟨S1x1x64, .f32⟩
  | .local _ .vmem, ⟨5, _⟩ => ⟨S1x1x64, .f32⟩
  | .local _ .vmem, ⟨6, _⟩ => ⟨S5000x64, .f32⟩
  | .local _ .vmem, ⟨7, _⟩ => ⟨S5000x64, .f32⟩
  | .local _ .vmem, ⟨8, _⟩ => ⟨S1x64, .f32⟩
  | .local _ .vmem, ⟨9, _⟩ => ⟨S1x64, .f32⟩
  | .local _ .vmem, ⟨10, _⟩ => ⟨S5000x64, .bf16⟩
  | .local _ .vmem, ⟨11, _⟩ => ⟨S5000x64, .bf16⟩
  | .local _ .vmem, ⟨12, _⟩ => ⟨S10000x576, .bf16⟩
  | .local _ .vmem, ⟨13, _⟩ => ⟨S10000x576, .bf16⟩
  | .local _ .vmem, ⟨14, _⟩ => ⟨S576x64, .bf16⟩
  | .local _ .vmem, ⟨15, _⟩ => ⟨S10000x64, .f32⟩
  | .local _ .vmem, ⟨16, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_cst : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_cst_3 : Ref sig .tc := ⟨.hbm, 18, rfl⟩
abbrev main_v8 : Ref sig .tc := ⟨.hbm, 19, rfl⟩
abbrev main_v9 : Ref sig .tc := ⟨.hbm, 20, rfl⟩
abbrev main_cst_4 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_5 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_c : Ref sig .tc := ⟨.hbm, 41, rfl⟩
abbrev main_v28 : Ref sig .tc := ⟨.hbm, 42, rfl⟩
abbrev main_v29 : Ref sig .tc := ⟨.hbm, 43, rfl⟩
abbrev main_c_6 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16

abbrev nD : Nat := 1
abbrev τ : Topo := Topo.v7x

variable {F : FTy → Type} [FloatOps F]

abbrev grid0 : Pipeline.Grid := ⟨2, ![2, 10], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![30], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x576 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S576x64 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  shapeCasts_S100000x64_S2x50000x64 : S100000x64.ShapeCasts S2x50000x64
  inb_S1x1x64_S1x1x64_0_0_0 : ∀ a, (![0, 0, 0] : Fin 3 → Nat) a + S1x1x64.size a ≤ S1x1x64.size a
  h_S1x1x64 : 0 < S1x1x64.numel
  shapeCasts_S1x1x64_S1x64 : S1x1x64.ShapeCasts S1x64
  shapeCasts_S1x64_S1x1x64 : S1x64.ShapeCasts S1x1x64
  inb_S1x5000x64_S1x5000x64_0_0_0 : ∀ a, (![0, 0, 0] : Fin 3 → Nat) a + S1x5000x64.size a ≤ S1x5000x64.size a
  h_S1x5000x64 : 0 < S1x5000x64.numel
  shapeCasts_S1x5000x64_S5000x64 : S1x5000x64.ShapeCasts S5000x64
  reduces_S5000x64_S64 : S5000x64.Reduces [0] S64
  shapeCasts_S64_S1x64 : S64.ShapeCasts S1x64
  reducesTo_S2x1x64_S1x64_d0 : S2x1x64.ReducesTo [0] S1x64
  h_S_ : 0 < S_.numel
  shapeCasts_S1x64_S32x2 : S1x64.ShapeCasts S32x2
  reducesTo_S32x2_S32_d1 : S32x2.ReducesTo [1] S32
  bcast_S_S32 : S_.BroadcastsInDim S32 (![] : Fin 0 → Fin S32.rank)
  bcast_S32_S32x2_0 : S32.BroadcastsInDim S32x2 (![0] : Fin 1 → Fin S32x2.rank)
  shapeCasts_S32x2_S64 : S32x2.ShapeCasts S64
  inb_S5000x64_S5000x64_0_0 : ∀ a, (![0, 0] : Fin 2 → Nat) a + S5000x64.size a ≤ S5000x64.size a
  h_S5000x64 : 0 < S5000x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  bitsLt_bf16_f32 : FTy.bits .bf16 < FTy.bits .f32
  packedbf16_S5000x64_S5000x64_0_0 : (Rect.unit (s := S5000x64) ![0, 0] S5000x64.size inb_S5000x64_S5000x64_0_0).PackedRows (EltTy.packing .bf16)
  bcast_S_S300000x9 : S_.BroadcastsInDim S300000x9 (![] : Fin 0 → Fin S300000x9.rank)
  bcast_S300000x9_S300000x9x1_0_1 : S300000x9.BroadcastsInDim S300000x9x1 (![0, 1] : Fin 2 → Fin S300000x9x1.rank)
  shapeCasts_S300000x9x64_S300000x576 : S300000x9x64.ShapeCasts S300000x576
  inb_S10000x576_S10000x576_0_0 : ∀ a, (![0, 0] : Fin 2 → Nat) a + S10000x576.size a ≤ S10000x576.size a
  h_S10000x576 : 0 < S10000x576.numel
  shapeCasts_S10000x576_S10000x576 : S10000x576.ShapeCasts S10000x576
  inb_S576x64_S576x64_0_0 : ∀ a, (![0, 0] : Fin 2 → Nat) a + S576x64.size a ≤ S576x64.size a
  h_S576x64 : 0 < S576x64.numel
  shapeCasts_S576x64_S576x64 : S576x64.ShapeCasts S576x64
  inb_S10000x64_S10000x64_0_0 : ∀ a, (![0, 0] : Fin 2 → Nat) a + S10000x64.size a ≤ S10000x64.size a
  h_S10000x64 : 0 < S10000x64.numel
  gather_S100000x64_S300000x9x1_S300000x9x64_2_0_n_n_0_2_164_wf : GatherDims.WF S100000x64 S300000x9x1 S300000x9x64 [2] [0] [] [0] [] 2 ![1, 64]
  dot_S10000x576_S576x64_S10000x64_1_0_0_1_n_n_wf : DotDims.WF S10000x576 S576x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x5000x64.size a ≤ S2x50000x64.size a
  hwx0_0 : ∀ i : grid0.Coords, EltTy.bits .f32 = 32 ∨ (Rect.block (s := S2x50000x64) S1x5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x64.size a ≤ S2x1x64.size a
  hwx0_1 : ∀ i : grid0.Coords, EltTy.bits .f32 = 32 ∨ (Rect.block (s := S2x1x64) S1x1x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x64.size a ≤ S2x1x64.size a
  hwx0_2 : ∀ i : grid0.Coords, EltTy.bits .f32 = 32 ∨ (Rect.block (s := S2x1x64) S1x1x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .bf16 = 32 ∨ (Rect.block (s := S100000x64) S5000x64.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x576.size a ≤ S300000x576.size a
  hwx2_0 : ∀ i : grid2.Coords, EltTy.bits .bf16 = 32 ∨ (Rect.block (s := S300000x576) S10000x576.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S576x64.size a ≤ S576x64.size a
  hwx2_1 : ∀ i : grid2.Coords, EltTy.bits .bf16 = 32 ∨ (Rect.block (s := S576x64) S576x64.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S300000x64.size a
  hwx2_2 : ∀ i : grid2.Coords, EltTy.bits .f32 = 32 ∨ (Rect.block (s := S300000x64) S10000x64.size (cc2_transform_2 i) (hinb2_2 i)).WholeWords (EltTy.packing .f32)

variable [Facts₀]

def gather_S100000x64_S300000x9x1_S300000x9x64_2_0_n_n_0_2_164 : GatherDims S100000x64 S300000x9x1 S300000x9x64 where
  offsetDims := [2]
  collapsedSliceDims := [0]
  operandBatchingDims := []
  startIndicesBatchingDims := []
  startIndexMap := [0]
  indexVectorDim := 2
  sliceSizes := ![1, 64]
  wf := gather_S100000x64_S300000x9x1_S300000x9x64_2_0_n_n_0_2_164_wf
def dot_S10000x576_S576x64_S10000x64_1_0_0_1_n_n : DotDims S10000x576 S576x64 S10000x64 where
  lhsContracting := [1]
  rhsContracting := [0]
  lhsNonContracting := [0]
  rhsNonContracting := [1]
  lhsBatch := []
  rhsBatch := []
  wf := dot_S10000x576_S576x64_S10000x64_1_0_0_1_n_n_wf

abbrev win0_0 : Pipeline.Window sig grid0 :=
  Pipeline.Window.ofSpec (Memref.whole main_v0) S1x5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1_0) S1x1x64.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_1) S1x1x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v26) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v35) S10000x576.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v36) S576x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v37) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x64 : Shape := ⟨2, ![100000, 64]⟩
abbrev S300000x9 : Shape := ⟨2, ![300000, 9]⟩
abbrev S64 : Shape := ⟨1, ![64]⟩
abbrev S576x64 : Shape := ⟨2, ![576, 64]⟩
abbrev S100000x32x2 : Shape := ⟨3, ![100000, 32, 2]⟩
abbrev S_ : Shape := ⟨0, ![]⟩
abbrev S32 : Shape := ⟨1, ![32]⟩
abbrev S1x32x1 : Shape := ⟨3, ![1, 32, 1]⟩
abbrev S1x64 : Shape := ⟨2, ![1, 64]⟩
abbrev S300000x9x1 : Shape := ⟨3, ![300000, 9, 1]⟩
abbrev S300000x9x64 : Shape := ⟨3, ![300000, 9, 64]⟩
abbrev S300000x576 : Shape := ⟨2, ![300000, 576]⟩
abbrev S300000x64 : Shape := ⟨2, ![300000, 64]⟩

abbrev nBuf : Space → Nat
  | .hbm => 50
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S300000x9, .i32⟩
  | .hbm, ⟨2, _⟩ => ⟨S64, .f32⟩
  | .hbm, ⟨3, _⟩ => ⟨S64, .f32⟩
  | .hbm, ⟨4, _⟩ => ⟨S576x64, .f32⟩
  | .hbm, ⟨5, _⟩ => ⟨S100000x32x2, .f32⟩
  | .hbm, ⟨6, _⟩ => ⟨S_, .f32⟩
  | .hbm, ⟨7, _⟩ => ⟨S32, .f32⟩
  | .hbm, ⟨8, _⟩ => ⟨S1x32x1, .f32⟩
  | .hbm, ⟨9, _⟩ => ⟨S_, .f32⟩
  | .hbm, ⟨10, _⟩ => ⟨S1x32x1, .f32⟩
  | .hbm, ⟨11, _⟩ => ⟨S1x32x1, .f32⟩
  | .hbm, ⟨12, _⟩ => ⟨S100000x32x2, .f32⟩
  | .hbm, ⟨13, _⟩ => ⟨S100000x32x2, .f32⟩
  | .hbm, ⟨14, _⟩ => ⟨S100000x32x2, .f32⟩
  | .hbm, ⟨15, _⟩ => ⟨S_, .f32⟩
  | .hbm, ⟨16, _⟩ => ⟨S32, .f32⟩
  | .hbm, ⟨17, _⟩ => ⟨S1x32x1, .f32⟩
  | .hbm, ⟨18, _⟩ => ⟨S_, .f32⟩
  | .hbm, ⟨19, _⟩ => ⟨S1x32x1, .f32⟩
  | .hbm, ⟨20, _⟩ => ⟨S1x32x1, .f32⟩
  | .hbm, ⟨21, _⟩ => ⟨S100000x32x2, .f32⟩
  | .hbm, ⟨22, _⟩ => ⟨S100000x32x2, .f32⟩
  | .hbm, ⟨23, _⟩ => ⟨S_, .f32⟩
  | .hbm, ⟨24, _⟩ => ⟨S1x32x1, .f32⟩
  | .hbm, ⟨25, _⟩ => ⟨S1x32x1, .f32⟩
  | .hbm, ⟨26, _⟩ => ⟨S1x32x1, .f32⟩
  | .hbm, ⟨27, _⟩ => ⟨S100000x32x2, .f32⟩
  | .hbm, ⟨28, _⟩ => ⟨S100000x32x2, .f32⟩
  | .hbm, ⟨29, _⟩ => ⟨S100000x64, .f32⟩
  | .hbm, ⟨30, _⟩ => ⟨S1x64, .f32⟩
  | .hbm, ⟨31, _⟩ => ⟨S100000x64, .f32⟩
  | .hbm, ⟨32, _⟩ => ⟨S100000x64, .f32⟩
  | .hbm, ⟨33, _⟩ => ⟨S1x64, .f32⟩
  | .hbm, ⟨34, _⟩ => ⟨S100000x64, .f32⟩
  | .hbm, ⟨35, _⟩ => ⟨S100000x64, .f32⟩
  | .hbm, ⟨36, _⟩ => ⟨S_, .f32⟩
  | .hbm, ⟨37, _⟩ => ⟨S100000x64, .f32⟩
  | .hbm, ⟨38, _⟩ => ⟨S100000x64, .f32⟩
  | .hbm, ⟨39, _⟩ => ⟨S_, .i32⟩
  | .hbm, ⟨40, _⟩ => ⟨S300000x9, .i32⟩
  | .hbm, ⟨41, _⟩ => ⟨S300000x9, .i1⟩
  | .hbm, ⟨42, _⟩ => ⟨S_, .i32⟩
  | .hbm, ⟨43, _⟩ => ⟨S300000x9, .i32⟩
  | .hbm, ⟨44, _⟩ => ⟨S300000x9, .i32⟩
  | .hbm, ⟨45, _⟩ => ⟨S300000x9, .i32⟩
  | .hbm, ⟨46, _⟩ => ⟨S300000x9x1, .i32⟩
  | .hbm, ⟨47, _⟩ => ⟨S300000x9x64, .f32⟩
  | .hbm, ⟨48, _⟩ => ⟨S300000x576, .f32⟩
  | .hbm, ⟨49, _⟩ => ⟨S300000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_call0_cst : Ref sig .tc := ⟨.hbm, 36, rfl⟩
abbrev main_call0_v0 : Ref sig .tc := ⟨.hbm, 37, rfl⟩
abbrev main_v26 : Ref sig .tc := ⟨.hbm, 38, rfl⟩
abbrev main_c : Ref sig .tc := ⟨.hbm, 39, rfl⟩
abbrev main_v27 : Ref sig .tc := ⟨.hbm, 40, rfl⟩
abbrev main_v28 : Ref sig .tc := ⟨.hbm, 41, rfl⟩
abbrev main_c_4 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩

abbrev nD : Nat := 1
abbrev τ : Topo := Topo.v7x

variable {F : FTy → Type} [FloatOps F]

class Facts₀ : Prop where
  shapeCasts_S100000x64_S100000x32x2 : S100000x64.ShapeCasts S100000x32x2
  reducesTo_S100000x32x2_S32_d0_2 : S100000x32x2.ReducesTo [0, 2] S32
  h_S_ : 0 < S_.numel
  bcast_S32_S1x32x1_1 : S32.BroadcastsInDim S1x32x1 (![1] : Fin 1 → Fin S1x32x1.rank)
  bcast_S_S1x32x1 : S_.BroadcastsInDim S1x32x1 (![] : Fin 0 → Fin S1x32x1.rank)
  bcast_S1x32x1_S100000x32x2_0_1_2 : S1x32x1.BroadcastsInDim S100000x32x2 (![0, 1, 2] : Fin 3 → Fin S100000x32x2.rank)
  shapeCasts_S100000x32x2_S100000x64 : S100000x32x2.ShapeCasts S100000x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S_S300000x9 : S_.BroadcastsInDim S300000x9 (![] : Fin 0 → Fin S300000x9.rank)
  bcast_S300000x9_S300000x9x1_0_1 : S300000x9.BroadcastsInDim S300000x9x1 (![0, 1] : Fin 2 → Fin S300000x9x1.rank)
  shapeCasts_S300000x9x64_S300000x576 : S300000x9x64.ShapeCasts S300000x576
  gather_S100000x64_S300000x9x1_S300000x9x64_2_0_n_n_0_2_164_wf : GatherDims.WF S100000x64 S300000x9x1 S300000x9x64 [2] [0] [] [0] [] 2 ![1, 64]
  dot_S300000x576_S576x64_S300000x64_1_0_0_1_n_n_wf : DotDims.WF S300000x576 S576x64 S300000x64 [1] [0] [0] [1] [] []

variable [Facts₀]

def gather_S100000x64_S300000x9x1_S300000x9x64_2_0_n_n_0_2_164 : GatherDims S100000x64 S300000x9x1 S300000x9x64 where
  offsetDims := [2]
  collapsedSliceDims := [0]
  operandBatchingDims := []
  startIndicesBatchingDims := []
  startIndexMap := [0]
  indexVectorDim := 2
  sliceSizes := ![1, 64]
  wf := gather_S100000x64_S300000x9x1_S300000x9x64_2_0_n_n_0_2_164_wf
def dot_S300000x576_S576x64_S300000x64_1_0_0_1_n_n : DotDims S300000x576 S576x64 S300000x64 where
  lhsContracting := [1]
  rhsContracting := [0]
  lhsNonContracting := [0]
  rhsNonContracting := [1]
  lhsBatch := []
  rhsBatch := []
  wf := dot_S300000x576_S576x64_S300000x64_1_0_0_1_n_n_wf

class Facts : Prop extends Facts₀ where

variable [Facts]
-- ==== Proof.KerRun.lean ====
/-
  The idealized kernel's whole run, with the result named.

  @main is six segments: a stretch of host operations, the column-sum pipeline, a stretch of host operations (the
  group statistics, scale and shift), the normalise-and-relu pipeline, a stretch of host operations (the gather and
  the reshape), and the matrix-product pipeline.  Every weakly fair execution runs them in order and terminates; the
  buffers' contents at each boundary are a fold from the launch memory, and the last boundary's contents `W6` are
  what the final memory holds at every unscoped buffer — in particular at the result's.
-/
import proofs.«153627_j25400436588659_2_alg».proof.Proof.Gen.KernelIdeal.Frame

set_option maxRecDepth 16384

noncomputable section

namespace Cert.KernelIdeal.KerRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the final memory holds the last boundary's
    contents at the result, and the argument arrays as launched. -/
theorem run_named : θ_run defs (onTc (τ := τ) (main (F := F))) ⟨m, fun _ => 0, ρ⟩ (fun r => ∀ c : Dev nD,
      r.2.mem ((c.tc : Thread nD τ).loc main_v37) = W6 m ρ c (Proc.devRef .tc main_v37)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v37 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c)⟩)

end Cert.KernelIdeal.KerRun

end
-- ==== Proof.LibMinOps.lean ====
/-
  Minima of a matrix along one axis, and a matrix's sum down its rows, each read at an index written by its coordinates,
  on the extended reals.

  For an `[a, b]` matrix the minimum along the lanes at row `p` is the fold of `min`, from the accumulator's value, over
  `c : Fin b` of the entries `(p, c)`; the minimum down the rows at lane `q` is the fold over `r : Fin a` of the entries
  `(r, q)`; the sum down the rows at lane `q` is the sum over `r` of them. The host's minimum over the LAST axis of an
  `[n, a, b]` array reads, at `(k, p)`, the fold over `c : Fin b` of the entries `(k, p, c)`; over the MIDDLE axis, at
  `(k, c)`, the fold over `p : Fin a` of the same entries. The bit pattern of `+∞` is the greatest extended real, so a
  fold of `min` that starts there is the plain minimum of the family.
-/
import Idealize.ShloMosaic.PureOps.Ideal.Laws
import Idealize.ShloMosaic.Lib.Pipeline.Value
import Idealize.ShloMosaic.Lib.ValueIdx

namespace Cert.MinOps

open Idealize.ShloMosaic Idealize.ShloMosaic.ValueIdx

/-- The f32 pattern of `+∞` is the greatest extended real. -/
theorem posInf_eq_top : Ideal.ofBits .f32 0x7F800000#32 = (⊤ : EReal) := by
  simp [Ideal.ofBits, Ideal.ieee]

variable {φ : FTy}

/-- A float minimum over ONE axis, on the extended reals: the fold of `min`, from the accumulator's value, over that axis's
    coordinates. -/
theorem multiReduction_minimumf_single {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (Ideal.ofBits φ acc) (src ∘ h.lift j) := by
  rw [multiReduction_minimumf_eq_fold]; exact h.fold_filter_drop_single _ _ src j

/-- The lane minimum of row `p`: the fold of `min` over the row's `b` entries. -/
theorem laneMin_apply {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.minimumf.neutral φ hφ)
    (p : Fin a) :
    multiReduction .minimumf [1] ⟨1, ![a]⟩ src acc h hφ hacc (ix1 p)
      = (Finset.univ : Finset (Fin b)).fold min (Ideal.ofBits φ acc) (fun c => src (ix2 p c)) := by
  refine (multiReduction_minimumf_single src acc h hφ hacc (ix1 p)).trans ?_
  show (Finset.univ : Finset (Fin b)).fold min (Ideal.ofBits φ acc) (fun c => src (h.lift (ix1 p) c)) = _
  refine congrArg (fun f => (Finset.univ : Finset (Fin b)).fold min (Ideal.ofBits φ acc) f) (funext fun c => ?_)
  exact congrArg src (funext fun ax => Fin.ext (by match ax with | ⟨0, _⟩ => rfl | ⟨1, _⟩ => rfl))

/-- The minimum down the rows at lane `q`: the fold of `min` over the column's `a` entries. -/
theorem rowsMin_apply {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.minimumf.neutral φ hφ)
    (q : Fin b) :
    multiReduction .minimumf [0] ⟨1, ![b]⟩ src acc h hφ hacc (ix1 q)
      = (Finset.univ : Finset (Fin a)).fold min (Ideal.ofBits φ acc) (fun r => src (ix2 r q)) := by
  refine (multiReduction_minimumf_single src acc h hφ hacc (ix1 q)).trans ?_
  show (Finset.univ : Finset (Fin a)).fold min (Ideal.ofBits φ acc) (fun r => src (h.lift (ix1 q) r)) = _
  refine congrArg (fun f => (Finset.univ : Finset (Fin a)).fold min (Ideal.ofBits φ acc) f) (funext fun r => ?_)
  exact congrArg src (funext fun ax => Fin.ext (by match ax with | ⟨0, _⟩ => rfl | ⟨1, _⟩ => rfl))

/-- The sum down the rows at lane `q`: the sum of the column's `a` entries. -/
theorem rowsSum_apply {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (q : Fin b) :
    multiReduction .add [0] ⟨1, ![b]⟩ src acc h hφ hacc (ix1 q) = ∑ r : Fin a, src (ix2 r q) := by
  refine (Ideal.multiReduction_add_single src acc h hφ hacc (ix1 q)).trans ?_
  show ∑ r : Fin a, src (h.lift (ix1 q) r) = _
  refine Finset.sum_congr rfl fun r _ => ?_
  exact congrArg src (funext fun ax => Fin.ext (by match ax with | ⟨0, _⟩ => rfl | ⟨1, _⟩ => rfl))

/-- The host's minimum over the LAST axis of an `[n, a, b]` array, at `(k, p)`: the fold of `min`, from the initial value,
    over `c : Fin b` of the entries `(k, p, c)`. -/
theorem hostLastMin_apply {n a b : ℕ} {u : Shape} (x : (⟨3, ![n, a, b]⟩ : Shape).Idx → Ideal φ) (init : u.Idx → Ideal φ)
    (h' : (⟨3, ![n, a, b]⟩ : Shape).ReducesTo [2] ⟨2, ![n, a]⟩) (h : (⟨3, ![n, a, b]⟩ : Shape).Reduces [2] ⟨2, ![n, a]⟩)
    (hu : 0 < u.numel) (k : Fin n) (p : Fin a) :
    Host.reduce (FloatOps.minimumf (F := Ideal) (φ := φ)) x init h' hu (ix2 k p)
      = (Finset.univ : Finset (Fin b)).fold min (init (Shape.Idx.first hu)) (fun c => x (ix3 k p c)) := by
  refine (Host.reduce_eq_fold_single (FloatOps.minimumf (F := Ideal) (φ := φ)) x init h' h hu (ix2 k p)).trans ?_
  show (Finset.univ : Finset (Fin b)).fold min (init (Shape.Idx.first hu)) (fun c => x (h.lift (ix2 k p) c)) = _
  refine congrArg (fun f => (Finset.univ : Finset (Fin b)).fold min (init (Shape.Idx.first hu)) f) (funext fun c => ?_)
  exact congrArg x (funext fun ax => Fin.ext (by match ax with | ⟨0, _⟩ => rfl | ⟨1, _⟩ => rfl | ⟨2, _⟩ => rfl))

/-- The host's minimum over the MIDDLE axis of an `[n, a, b]` array, at `(k, c)`: the fold of `min`, from the initial
    value, over `p : Fin a` of the entries `(k, p, c)`. -/
theorem hostMidMin_apply {n a b : ℕ} {u : Shape} (x : (⟨3, ![n, a, b]⟩ : Shape).Idx → Ideal φ) (init : u.Idx → Ideal φ)
    (h' : (⟨3, ![n, a, b]⟩ : Shape).ReducesTo [1] ⟨2, ![n, b]⟩) (h : (⟨3, ![n, a, b]⟩ : Shape).Reduces [1] ⟨2, ![n, b]⟩)
    (hu : 0 < u.numel) (k : Fin n) (c : Fin b) :
    Host.reduce (FloatOps.minimumf (F := Ideal) (φ := φ)) x init h' hu (ix2 k c)
      = (Finset.univ : Finset (Fin a)).fold min (init (Shape.Idx.first hu)) (fun p => x (ix3 k p c)) := by
  refine (Host.reduce_eq_fold_single (FloatOps.minimumf (F := Ideal) (φ := φ)) x init h' h hu (ix2 k c)).trans ?_
  show (Finset.univ : Finset (Fin a)).fold min (init (Shape.Idx.first hu)) (fun p => x (h.lift (ix2 k c) p)) = _
  refine congrArg (fun f => (Finset.univ : Finset (Fin a)).fold min (init (Shape.Idx.first hu)) f) (funext fun p => ?_)
  exact congrArg x (funext fun ax => Fin.ext (by match ax with | ⟨0, _⟩ => rfl | ⟨1, _⟩ => rfl | ⟨2, _⟩ => rfl))

/-- A sum over the indices of an `[n, 1, 1]` array is the sum over its first coordinate. -/
theorem sum_idx_n11 {M : Type*} [AddCommMonoid M] {n : ℕ} (f : (⟨3, ![n, 1, 1]⟩ : Shape).Idx → M) :
    ∑ j, f j = ∑ k : Fin n, f (ix3 k (0 : Fin 1) (0 : Fin 1)) := by
  refine (Fintype.sum_equiv
    (⟨fun k => ix3 k (0 : Fin 1) (0 : Fin 1), fun j => j 0, fun _ => rfl, fun j => funext fun d => ?_⟩ :
      Fin n ≃ (⟨3, ![n, 1, 1]⟩ : Shape).Idx) _ _ fun _ => rfl).symm
  match d with
  | ⟨0, _⟩ => rfl
  | ⟨1, _⟩ => exact Subsingleton.elim (α := Fin 1) _ _
  | ⟨2, _⟩ => exact Subsingleton.elim (α := Fin 1) _ _

end Cert.MinOps
-- ==== Proof.KerSums.lean ====
/-
  The first pipeline of the kernel: the column sums of the table and of its squares.

  The table, viewed as two halves of 50000 rows, is read in blocks of 5000 rows: grid point (i, j) reads block j of
  half i.  For each half the pipeline keeps two rows of 64 running sums, reset to zero at the half's first block
  (j = 0) and increased at every block by the block's column sums, resp. the column sums of its squares; they are
  written back once, after the half's last block.  So row i of the first result holds, for each channel, the sum over
  the half's 10 blocks of the block's 5000 entries, and row i of the second the same sum of squares.
-/
import proofs.«153627_j25400436588659_2_alg».proof.Proof.Gen.KernelIdeal.Frame
import proofs.«153627_j25400436588659_2_alg».proof.Proof.LibMinOps
import Idealize.ShloMosaic.Lib.Pipeline.Value
import Idealize.ShloMosaic.Lib.ValueLayout
import Idealize.ShloMosaic.Lib.ValueIdx
import Idealize.ShloMosaic.Lib.Tactic
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.KerSums

open Cert.KernelIdeal Cert.KernelIdeal.Gen

theorem hz3 : (![0, 0, 0] : Fin 3 → Nat) = fun _ => 0 := funext fun a => by fin_cases a <;> rfl

/-! ## What one grid point leaves in the two running rows -/

section Cases
variable {F : FTy → Type} [FloatOps F]

/-- A point that is not a half's first: the first running row `xo1` becomes `xo1 + (the block's column sums)`. -/
theorem out_B_1 (c : Dev nD) (i : grid0.Coords) (a2 : Memref sig .tc .vmem S1x5000x64 .f32) (h2 : a2.IsWhole)
    (a3 : Memref sig .tc .vmem S1x1x64 .f32) (h3 : a3.IsWhole) (a4 : Memref sig .tc .vmem S1x1x64 .f32) (h4 : a4.IsWhole)
    (hc : ¬cond0_0 i) (x : Vec F S1x5000x64 .f32) (xo1 xo2 : Vec F S1x1x64 .f32) :
    out0_B_1 c i a2 h2 a3 h3 a4 h4 hc x xo1 xo2 = k0_pay4 x xo1 := by
  unfold out0_B_1
  rw [View.read_writes_eq_canon _ _ _ (cover0_B_1 c i a2 h2 a3 h3 a4 h4 hc x xo1 xo2)]
  unfold kernelRun0_B
  dsimp only
  rw [View.canon_unit_zero hz3]
  simp only [View.readAt_eq_ld, h2.read_unread, h3.read_unread, View.ld_unit_zero (S := S1x5000x64) hz3,
    View.ld_unit_zero (S := S1x1x64) hz3]

/-- The same point: the second running row `xo2` becomes `xo2 + (the column sums of the block's squares)`. -/
theorem out_B_2 (c : Dev nD) (i : grid0.Coords) (a2 : Memref sig .tc .vmem S1x5000x64 .f32) (h2 : a2.IsWhole)
    (a3 : Memref sig .tc .vmem S1x1x64 .f32) (h3 : a3.IsWhole) (a4 : Memref sig .tc .vmem S1x1x64 .f32) (h4 : a4.IsWhole)
    (hc : ¬cond0_0 i) (x : Vec F S1x5000x64 .f32) (xo1 xo2 : Vec F S1x1x64 .f32) :
    out0_B_2 c i a2 h2 a3 h3 a4 h4 hc x xo1 xo2 = k0_pay5 x xo2 := by
  unfold out0_B_2
  rw [View.read_writes_eq_canon _ _ _ (cover0_B_2 c i a2 h2 a3 h3 a4 h4 hc x xo1 xo2)]
  unfold kernelRun0_B
  dsimp only
  rw [View.canon_unit_zero hz3]
  simp only [View.readAt_eq_ld, h2.read_unread, h4.read_unread, View.ld_unit_zero (S := S1x5000x64) hz3,
    View.ld_unit_zero (S := S1x1x64) hz3]

/-- A half's first point: the first running row is reset to the zero row and then increased by the block's column sums. -/
theorem out_A_1 (c : Dev nD) (i : grid0.Coords) (a2 : Memref sig .tc .vmem S1x5000x64 .f32) (h2 : a2.IsWhole)
    (a3 : Memref sig .tc .vmem S1x1x64 .f32) (h3 : a3.IsWhole) (a4 : Memref sig .tc .vmem S1x1x64 .f32) (h4 : a4.IsWhole)
    (hc : cond0_0 i) (x : Vec F S1x5000x64 .f32) :
    out0_A_1 c i a2 h2 a3 h3 a4 h4 hc x = k0_pay4 x k0_pay1 := by
  unfold out0_A_1
  rw [View.read_writes_eq_canon _ _ _ (cover0_A_1 c i a2 h2 a3 h3 a4 h4 hc x)]
  unfold kernelRun0_A
  dsimp only
  sl_unfold_words
  rw [View.canon_cons_unit_zero (S := S1x1x64) hz3, View.readCov_unit_zero (S := S1x1x64) _ hz3]
  simp only [View.readAt_eq_ld, h2.read_unread, View.ld_unit_zero (S := S1x5000x64) hz3]

/-- The same point: the second running row is reset to the zero row and increased by the column sums of the squares. -/
theorem out_A_2 (c : Dev nD) (i : grid0.Coords) (a2 : Memref sig .tc .vmem S1x5000x64 .f32) (h2 : a2.IsWhole)
    (a3 : Memref sig .tc .vmem S1x1x64 .f32) (h3 : a3.IsWhole) (a4 : Memref sig .tc .vmem S1x1x64 .f32) (h4 : a4.IsWhole)
    (hc : cond0_0 i) (x : Vec F S1x5000x64 .f32) :
    out0_A_2 c i a2 h2 a3 h3 a4 h4 hc x = k0_pay5 x k0_pay2 := by
  unfold out0_A_2
  rw [View.read_writes_eq_canon _ _ _ (cover0_A_2 c i a2 h2 a3 h3 a4 h4 hc x)]
  unfold kernelRun0_A
  dsimp only
  sl_unfold_words
  rw [View.canon_cons_unit_zero (S := S1x1x64) hz3, View.readCov_unit_zero (S := S1x1x64) _ hz3]
  simp only [View.readAt_eq_ld, h2.read_unread, View.ld_unit_zero (S := S1x5000x64) hz3]

end Cases

/-! ## The point's arithmetic at a channel, on the extended reals -/

/-- The zero row holds zero. -/
theorem zeroRow1_apply (ch : Fin 64) : (k0_pay1 (F := Ideal)) (ix3 (0 : Fin 1) (0 : Fin 1) ch) = 0 := by
  unfold k0_pay1
  rw [shapeCast_ab_1ab_apply]
  exact Ideal.ofBits_zero_f32

theorem zeroRow2_apply (ch : Fin 64) : (k0_pay2 (F := Ideal)) (ix3 (0 : Fin 1) (0 : Fin 1) ch) = 0 := by
  unfold k0_pay2
  rw [shapeCast_ab_1ab_apply]
  exact Ideal.ofBits_zero_f32

/-- The block with its leading unit axis dropped. -/
theorem rows_apply (x : Vec Ideal S1x5000x64 .f32) (r : Fin 5000) (ch : Fin 64) :
    k0_pay3 (F := Ideal) x (ix2 r ch) = x (ix3 (0 : Fin 1) r ch) := by
  unfold k0_pay3
  exact shapeCast_1ab_ab_apply x _ r ch

/-- The running row plus the block's column sum at channel `ch`. -/
theorem addSums_apply (x : Vec Ideal S1x5000x64 .f32) (acc : Vec Ideal S1x1x64 .f32) (ch : Fin 64) :
    k0_pay4 (F := Ideal) x acc (ix3 (0 : Fin 1) (0 : Fin 1) ch)
      = acc (ix3 (0 : Fin 1) (0 : Fin 1) ch) + ∑ r : Fin 5000, x (ix3 (0 : Fin 1) r ch) := by
  unfold k0_pay4
  rw [shapeCast_ab_1ab_apply, addf_apply, shapeCast_1ab_ab_apply, shapeCast_a_1a_apply]
  refine congrArg (acc (ix3 (0 : Fin 1) (0 : Fin 1) ch) + ·) ?_
  refine (Cert.MinOps.rowsSum_apply (k0_pay3 (F := Ideal) x) _ _ _ _ ch).trans ?_
  exact Finset.sum_congr rfl fun r _ => rows_apply x r ch

/-- The running row plus the column sum of the block's squares at channel `ch`. -/
theorem addSquares_apply (x : Vec Ideal S1x5000x64 .f32) (acc : Vec Ideal S1x1x64 .f32) (ch : Fin 64) :
    k0_pay5 (F := Ideal) x acc (ix3 (0 : Fin 1) (0 : Fin 1) ch)
      = acc (ix3 (0 : Fin 1) (0 : Fin 1) ch) + ∑ r : Fin 5000, x (ix3 (0 : Fin 1) r ch) * x (ix3 (0 : Fin 1) r ch) := by
  unfold k0_pay5
  rw [shapeCast_ab_1ab_apply, addf_apply, shapeCast_1ab_ab_apply, shapeCast_a_1a_apply]
  refine congrArg (acc (ix3 (0 : Fin 1) (0 : Fin 1) ch) + ·) ?_
  refine (Cert.MinOps.rowsSum_apply (mulf (k0_pay3 (F := Ideal) x) (k0_pay3 (F := Ideal) x)) _ _ _ _ ch).trans ?_
  exact Finset.sum_congr rfl fun r _ => by rw [mulf_apply, rows_apply]

/-! ## The blocks the points read and write -/

section Sums
variable (V : (c : Dev nD) → (b : Ref sig .tc) → Buf (Elt Ideal) ((c : Thread nD τ).loc b))

/-- Grid point `t` is block `t % 10` of half `t / 10`: the input window's block index is (t / 10, t % 10, 0) and both
    output windows' is (t / 10, 0, 0). -/
theorem idx_facts : ∀ t : Fin cfg0.N, win0_0.index t (0 : Fin 3) = t.val / 10 ∧ win0_0.index t (1 : Fin 3) = t.val % 10
    ∧ win0_0.index t (2 : Fin 3) = 0
    ∧ win0_1.index t (0 : Fin 3) = t.val / 10 ∧ win0_1.index t (1 : Fin 3) = 0 ∧ win0_1.index t (2 : Fin 3) = 0
    ∧ win0_2.index t (0 : Fin 3) = t.val / 10 ∧ win0_2.index t (1 : Fin 3) = 0 ∧ win0_2.index t (2 : Fin 3) = 0 :=
  (by decide +kernel : ∀ t : Fin grid0.N, _)

/-- The viewed table's entry (half i, row k, channel ch), as the first pipeline finds it; zero outside the table. -/
def entry (c : Dev nD) (i k : ℕ) (ch : Fin 64) : EReal :=
  if h : i < 2 ∧ k < 50000 then (V c main_v0 : S2x50000x64.Idx → EReal) (ix3 ⟨i, h.1⟩ ⟨k, h.2⟩ ch) else 0

/-- Row `r` of the block point `t` reads is row `(t % 10) · 5000 + r` of half `t / 10`. -/
theorem blk_apply (c : Dev nD) (t : Fin cfg0.N) (r : Fin 5000) (ch : Fin 64) :
    (iblk0 V c 0 t : Vec Ideal S1x5000x64 .f32) (ix3 (0 : Fin 1) r ch) = entry V c (t.val / 10) (t.val % 10 * 5000 + r.val) ch := by
  have hN : t.val < 20 := lt_of_lt_of_eq t.isLt (show cfg0.N = 20 from N_0)
  obtain ⟨h0, h1, h2, -⟩ := idx_facts t
  have hb : t.val / 10 < 2 ∧ t.val % 10 * 5000 + r.val < 50000 := ⟨by omega, by have := r.isLt; omega⟩
  unfold entry
  rw [dif_pos hb]
  unfold iblk0
  rw [View.read_apply]
  show V c main_v0 _ = V c main_v0 _
  congr 1
  funext a
  apply Fin.ext
  match a with
  | ⟨0, _⟩ => show win0_0.index t (0 : Fin 3) * 1 + 1 * 0 = t.val / 10; omega
  | ⟨1, _⟩ => show win0_0.index t (1 : Fin 3) * 5000 + 1 * r.val = t.val % 10 * 5000 + r.val; omega
  | ⟨2, _⟩ => show win0_0.index t (2 : Fin 3) * 64 + 1 * ch.val = ch.val; omega

/-! ## The running rows after each point: the half's blocks so far, summed -/

/-- After point `n` the first running row holds, at channel `ch`, the sum over the half's blocks 0 … n % 10 of the block's
    5000 entries — by induction on the point. -/
theorem sums_at (c : Dev nD) : ∀ (n : ℕ) (hn : n < cfg0.N) (ch : Fin 64),
    (outsAt0 V c n hn).1 (ix3 (0 : Fin 1) (0 : Fin 1) ch)
      = ∑ j ∈ Finset.range (n % 10 + 1), ∑ r : Fin 5000, entry V c (n / 10) (j * 5000 + r.val) ch
  | 0, hn, ch => by
    rw [outsAt0_A V c ⟨0, hn⟩ rfl]
    dsimp only
    rw [out_A_1, addSums_apply, zeroRow1_apply, zero_add]
    simp only [blk_apply, Finset.range_one, Finset.sum_singleton, Nat.zero_mod, Nat.zero_div, Nat.zero_add]
  | n + 1, hn, ch => by
    by_cases h0 : (n + 1) % 10 = 0
    · rw [outsAt0_A V c ⟨n + 1, hn⟩ h0]
      dsimp only
      rw [out_A_1, addSums_apply, zeroRow1_apply, zero_add, h0]
      simp only [blk_apply, Finset.range_one, Finset.sum_singleton, Nat.zero_add, h0]
    · rw [outsAt0_B V c ⟨n + 1, hn⟩ h0]
      dsimp only
      rw [out_B_1, addSums_apply]
      show (outsAt0 V c n _).1 _ + _ = _
      have e1 : n / 10 = (n + 1) / 10 := by omega
      have e2 : n % 10 + 1 = (n + 1) % 10 := by omega
      rw [sums_at c n (Nat.lt_of_succ_lt hn) ch, Finset.sum_range_succ _ ((n + 1) % 10), e1, e2]
      simp only [blk_apply]

/-- The same for the second running row and the squares. -/
theorem squares_at (c : Dev nD) : ∀ (n : ℕ) (hn : n < cfg0.N) (ch : Fin 64),
    (outsAt0 V c n hn).2 (ix3 (0 : Fin 1) (0 : Fin 1) ch)
      = ∑ j ∈ Finset.range (n % 10 + 1), ∑ r : Fin 5000,
          entry V c (n / 10) (j * 5000 + r.val) ch * entry V c (n / 10) (j * 5000 + r.val) ch
  | 0, hn, ch => by
    rw [outsAt0_A V c ⟨0, hn⟩ rfl]
    dsimp only
    rw [out_A_2, addSquares_apply, zeroRow2_apply, zero_add]
    simp only [blk_apply, Finset.range_one, Finset.sum_singleton, Nat.zero_mod, Nat.zero_div, Nat.zero_add]
  | n + 1, hn, ch => by
    by_cases h0 : (n + 1) % 10 = 0
    · rw [outsAt0_A V c ⟨n + 1, hn⟩ h0]
      dsimp only
      rw [out_A_2, addSquares_apply, zeroRow2_apply, zero_add, h0]
      simp only [blk_apply, Finset.range_one, Finset.sum_singleton, Nat.zero_add, h0]
    · rw [outsAt0_B V c ⟨n + 1, hn⟩ h0]
      dsimp only
      rw [out_B_2, addSquares_apply]
      show (outsAt0 V c n _).2 _ + _ = _
      have e1 : n / 10 = (n + 1) / 10 := by omega
      have e2 : n % 10 + 1 = (n + 1) % 10 := by omega
      rw [squares_at c n (Nat.lt_of_succ_lt hn) ch, Finset.sum_range_succ _ ((n + 1) % 10), e1, e2]
      simp only [blk_apply]

end Sums

/-! ## The two result arrays after the pipeline -/

section Arrays
variable (V : (c : Dev nD) → (b : Ref sig .tc) → Buf (Elt Ideal) ((c : Thread nD τ).loc b))

/-- Row `i`, channel `ch` of the first result: half `i`'s ten blocks of 5000 entries, summed; of the second: their squares. -/
def halfSums (c : Dev nD) : S2x1x64.Idx → EReal :=
  fun y => ∑ j ∈ Finset.range 10, ∑ r : Fin 5000, entry V c (y 0).val (j * 5000 + r.val) (y 2)
def halfSquares (c : Dev nD) : S2x1x64.Idx → EReal :=
  fun y => ∑ j ∈ Finset.range 10, ∑ r : Fin 5000,
    entry V c (y 0).val (j * 5000 + r.val) (y 2) * entry V c (y 0).val (j * 5000 + r.val) (y 2)

/-- The block of a result array that point `t` writes is row `t / 10`. -/
theorem emb1 (t : Fin cfg0.N) (ch : Fin 64) (h : t.val / 10 < 2) :
    ((cfg0.win 1).blk t).view.emb (ix3 (0 : Fin 1) (0 : Fin 1) ch) = ix3 (⟨t.val / 10, h⟩ : Fin 2) (0 : Fin 1) ch := by
  obtain ⟨-, -, -, h0, h1, h2, -⟩ := idx_facts t
  funext a
  apply Fin.ext
  match a with
  | ⟨0, _⟩ => show win0_1.index t (0 : Fin 3) * 1 + 1 * 0 = t.val / 10; omega
  | ⟨1, _⟩ => show win0_1.index t (1 : Fin 3) * 1 + 1 * 0 = 0; omega
  | ⟨2, _⟩ => show win0_1.index t (2 : Fin 3) * 64 + 1 * ch.val = ch.val; omega

theorem emb2 (t : Fin cfg0.N) (ch : Fin 64) (h : t.val / 10 < 2) :
    ((cfg0.win 2).blk t).view.emb (ix3 (0 : Fin 1) (0 : Fin 1) ch) = ix3 (⟨t.val / 10, h⟩ : Fin 2) (0 : Fin 1) ch := by
  obtain ⟨-, -, -, -, -, -, h0, h1, h2⟩ := idx_facts t
  funext a
  apply Fin.ext
  match a with
  | ⟨0, _⟩ => show win0_2.index t (0 : Fin 3) * 1 + 1 * 0 = t.val / 10; omega
  | ⟨1, _⟩ => show win0_2.index t (1 : Fin 3) * 1 + 1 * 0 = 0; omega
  | ⟨2, _⟩ => show win0_2.index t (2 : Fin 3) * 64 + 1 * ch.val = ch.val; omega

/-- A write-back happens after a half's last block, and writes the half's row of sums. -/
theorem flushed1_eq (c : Dev nD) (t : Fin cfg0.N) (hf : (cfg0.win 1).flush t = true) :
    (dat0 V c).flushed 1 t = ((cfg0.win 1).blk t).view.read (Elt Ideal) (halfSums V c) := by
  have hN : t.val < 20 := lt_of_lt_of_eq t.isLt (show cfg0.N = 20 from N_0)
  have h9 : t.val % 10 = 9 := (flush0_1 t).mp hf
  show (cfg0.win 1).cut (grid0.coords t) ((dat0 V c).after 1 t) = _
  rw [after0_1]
  funext y
  obtain ⟨u, v, ch, rfl⟩ : ∃ (u : Fin 1) (v : Fin 1) (ch : Fin 64), y = ix3 u v ch := ⟨y 0, y 1, y 2, eq_ix3 y⟩
  obtain rfl : u = 0 := Subsingleton.elim _ _
  obtain rfl : v = 0 := Subsingleton.elim _ _
  rw [View.read_apply, emb1 t ch (by omega)]
  show (outsAt0 V c t.val t.isLt).1 (ix3 (0 : Fin 1) (0 : Fin 1) ch) = _
  rw [sums_at V c t.val t.isLt ch, h9]
  rfl

theorem flushed2_eq (c : Dev nD) (t : Fin cfg0.N) (hf : (cfg0.win 2).flush t = true) :
    (dat0 V c).flushed 2 t = ((cfg0.win 2).blk t).view.read (Elt Ideal) (halfSquares V c) := by
  have hN : t.val < 20 := lt_of_lt_of_eq t.isLt (show cfg0.N = 20 from N_0)
  have h9 : t.val % 10 = 9 := (flush0_2 t).mp hf
  show (cfg0.win 2).cut (grid0.coords t) ((dat0 V c).after 2 t) = _
  rw [after0_2]
  funext y
  obtain ⟨u, v, ch, rfl⟩ : ∃ (u : Fin 1) (v : Fin 1) (ch : Fin 64), y = ix3 u v ch := ⟨y 0, y 1, y 2, eq_ix3 y⟩
  obtain rfl : u = 0 := Subsingleton.elim _ _
  obtain rfl : v = 0 := Subsingleton.elim _ _
  rw [View.read_apply, emb2 t ch (by omega)]
  show (outsAt0 V c t.val t.isLt).2 (ix3 (0 : Fin 1) (0 : Fin 1) ch) = _
  rw [squares_at V c t.val t.isLt ch, h9]
  rfl

/-- Row `i` of a result array lies in the block written after point `10 i + 9`. -/
theorem last_point (i : S2x1x64.Idx) : (i 0).val * 10 + 9 < cfg0.N := by
  have h : (i 0).val < 2 := (i 0).isLt
  rw [show cfg0.N = 20 from N_0]; omega

theorem covered1 (i : S2x1x64.Idx) :
    ∃ t : Fin cfg0.N, (cfg0.win 1).flush t = true ∧ i ∈ ((cfg0.win 1).blk t).view.set := by
  have h0 : (i 0).val < 2 := (i 0).isLt
  have h1 : (i 1).val < 1 := (i 1).isLt
  have h2 : (i 2).val < 64 := (i 2).isLt
  refine ⟨⟨(i 0).val * 10 + 9, last_point i⟩, (flush0_1 _).mpr (by dsimp only; omega), ?_⟩
  obtain ⟨-, -, -, e0, e1, e2, -⟩ := idx_facts ⟨(i 0).val * 10 + 9, last_point i⟩
  dsimp only at e0 e1 e2
  show i ∈ ((View.whole main_v1_0).slice (win0_1.rect ⟨(i 0).val * 10 + 9, last_point i⟩)).set
  rw [View.set_slice_whole, Rect.mem_set_unit]
  intro a
  match a with
  | ⟨0, _⟩ => show win0_1.index ⟨(i 0).val * 10 + 9, last_point i⟩ (0 : Fin 3) * 1 ≤ (i 0).val ∧ (i 0).val < win0_1.index ⟨(i 0).val * 10 + 9, last_point i⟩ (0 : Fin 3) * 1 + 1; omega
  | ⟨1, _⟩ => show win0_1.index ⟨(i 0).val * 10 + 9, last_point i⟩ (1 : Fin 3) * 1 ≤ (i 1).val ∧ (i 1).val < win0_1.index ⟨(i 0).val * 10 + 9, last_point i⟩ (1 : Fin 3) * 1 + 1; omega
  | ⟨2, _⟩ => show win0_1.index ⟨(i 0).val * 10 + 9, last_point i⟩ (2 : Fin 3) * 64 ≤ (i 2).val ∧ (i 2).val < win0_1.index ⟨(i 0).val * 10 + 9, last_point i⟩ (2 : Fin 3) * 64 + 64; omega

theorem covered2 (i : S2x1x64.Idx) :
    ∃ t : Fin cfg0.N, (cfg0.win 2).flush t = true ∧ i ∈ ((cfg0.win 2).blk t).view.set := by
  have h0 : (i 0).val < 2 := (i 0).isLt
  have h1 : (i 1).val < 1 := (i 1).isLt
  have h2 : (i 2).val < 64 := (i 2).isLt
  refine ⟨⟨(i 0).val * 10 + 9, last_point i⟩, (flush0_2 _).mpr (by dsimp only; omega), ?_⟩
  obtain ⟨-, -, -, -, -, -, e0, e1, e2⟩ := idx_facts ⟨(i 0).val * 10 + 9, last_point i⟩
  dsimp only at e0 e1 e2
  show i ∈ ((View.whole main_v1_1).slice (win0_2.rect ⟨(i 0).val * 10 + 9, last_point i⟩)).set
  rw [View.set_slice_whole, Rect.mem_set_unit]
  intro a
  match a with
  | ⟨0, _⟩ => show win0_2.index ⟨(i 0).val * 10 + 9, last_point i⟩ (0 : Fin 3) * 1 ≤ (i 0).val ∧ (i 0).val < win0_2.index ⟨(i 0).val * 10 + 9, last_point i⟩ (0 : Fin 3) * 1 + 1; omega
  | ⟨1, _⟩ => show win0_2.index ⟨(i 0).val * 10 + 9, last_point i⟩ (1 : Fin 3) * 1 ≤ (i 1).val ∧ (i 1).val < win0_2.index ⟨(i 0).val * 10 + 9, last_point i⟩ (1 : Fin 3) * 1 + 1; omega
  | ⟨2, _⟩ => show win0_2.index ⟨(i 0).val * 10 + 9, last_point i⟩ (2 : Fin 3) * 64 ≤ (i 2).val ∧ (i 2).val < win0_2.index ⟨(i 0).val * 10 + 9, last_point i⟩ (2 : Fin 3) * 64 + 64; omega

/-- So the two result arrays end holding the halves' sums and sums of squares. -/
theorem sums_final (c : Dev nD) : (dat0 V c).arrAt 1 cfg0.N = halfSums V c :=
  (dat0 V c).arrAt_eq_of_cover 1 (halfSums V c) (flushed1_eq V c) (covered1)
theorem squares_final (c : Dev nD) : (dat0 V c).arrAt 2 cfg0.N = halfSquares V c :=
  (dat0 V c).arrAt_eq_of_cover 2 (halfSquares V c) (flushed2_eq V c) (covered2)

/-- The ten-block sum of a viewed table `x3` over half `i` at channel `ch`, and the same of its squares. -/
def blockSum (x3 : S2x50000x64.Idx → EReal) (i : Fin 2) (ch : Fin 64) : EReal :=
  ∑ j : Fin 10, ∑ r : Fin 5000, x3 (ix3 i ⟨j.val * 5000 + r.val, by omega⟩ ch)
def blockSquares (x3 : S2x50000x64.Idx → EReal) (i : Fin 2) (ch : Fin 64) : EReal :=
  ∑ j : Fin 10, ∑ r : Fin 5000, x3 (ix3 i ⟨j.val * 5000 + r.val, by omega⟩ ch) * x3 (ix3 i ⟨j.val * 5000 + r.val, by omega⟩ ch)

/-- The result arrays read at a row and a channel: the ten-block sums of the viewed table as the pipeline finds it. -/
theorem halfSums_apply (c : Dev nD) (i : Fin 2) (ch : Fin 64) :
    halfSums V c (ix3 i (0 : Fin 1) ch) = blockSum (V c main_v0) i ch := by
  show ∑ j ∈ Finset.range 10, ∑ r : Fin 5000, entry V c i.val (j * 5000 + r.val) ch = _
  rw [← Fin.sum_univ_eq_sum_range (fun j => ∑ r : Fin 5000, entry V c i.val (j * 5000 + r.val) ch) 10]
  refine Finset.sum_congr rfl fun j _ => Finset.sum_congr rfl fun r _ => ?_
  unfold entry
  rw [dif_pos ⟨i.isLt, by omega⟩]

theorem halfSquares_apply (c : Dev nD) (i : Fin 2) (ch : Fin 64) :
    halfSquares V c (ix3 i (0 : Fin 1) ch) = blockSquares (V c main_v0) i ch := by
  show ∑ j ∈ Finset.range 10, ∑ r : Fin 5000, entry V c i.val (j * 5000 + r.val) ch * entry V c i.val (j * 5000 + r.val) ch = _
  rw [← Fin.sum_univ_eq_sum_range (fun j => ∑ r : Fin 5000, entry V c i.val (j * 5000 + r.val) ch * entry V c i.val (j * 5000 + r.val) ch) 10]
  refine Finset.sum_congr rfl fun j _ => Finset.sum_congr rfl fun r _ => ?_
  unfold entry
  rw [dif_pos ⟨i.isLt, by omega⟩]

end Arrays

end Cert.KernelIdeal.KerSums

end
-- ==== Proof.Spec.lean ====
/-
  The mathematics both programs compute, stated once on the extended reals.

  A table `x` of 100000 rows and 64 channels is normalised group by group: the 64 channels fall into 32 groups of two
  neighbouring channels (2g, 2g+1); a group's mean `μ` and variance `v` are taken over all 100000 rows and both of its
  channels (200000 entries), and every entry becomes `relu ((x − μ) · (v + ε)^(-1/2) · γ + β)` with a per-channel
  scale `γ` and shift `β`.  Each of 300000 fine rows then gathers nine rows of the normalised table, lays them side by
  side (9 · 64 = 576 numbers) and multiplies that row by a 576 × 64 matrix.

  Two arrangements of the normalisation are written out:
  * `kerTab`: the sums taken channel by channel over 2 halves × 10 blocks × 5000 rows, the variance as
    `E[x²] − μ²`, and the affine map folded to `x · (γ · r) + (β − (μ · γ) · r)`;
  * `refTab`: the sums over all rows and the two channels of the group at once, the variance as `E[(x − μ)²]`,
    and the map as `((x − μ) · r) · γ + β`.
  That they are the same table when every entry of `x`, `γ`, `β` is a real number is proved in `Proof/NormAlgebra.lean`.
-/
import Idealize.ShloMosaic.PureOps.Ideal
import Idealize.ShloMosaic.Lib.ValueIdx

noncomputable section

namespace Cert.GN

open Idealize.ShloMosaic Idealize.ShloMosaic.ValueIdx

/-- The table's shape, a channel vector's, the weight matrix's, the gathered rows' and the result's. -/
abbrev SX : Shape := ⟨2, ![100000, 64]⟩
abbrev SC : Shape := ⟨1, ![64]⟩
abbrev SW : Shape := ⟨2, ![576, 64]⟩
abbrev SG : Shape := ⟨2, ![300000, 576]⟩
abbrev SO : Shape := ⟨2, ![300000, 64]⟩

/-- The number of entries of a group (200000), the variance's guard ε (the f32 nearest 1e-5) and zero, each as the
    f32 word both programs spell. -/
def cnt : EReal := Ideal.ofBits .f32 0x48435000#32
def eps : EReal := Ideal.ofBits .f32 0x3727C5AC#32
def zero32 : EReal := Ideal.ofBits .f32 0x00000000#32

/-- Channel `j` (0 or 1) of group `g`, and the group of a channel. -/
def chan (g : Fin 32) (j : Fin 2) : Fin 64 := ⟨2 * g.val + j.val, by omega⟩
def grp (ch : Fin 64) : Fin 32 := ⟨ch.val / 2, by omega⟩
/-- Row `r` of block `j` of half `i` of the table. -/
def row (i : Fin 2) (j : Fin 10) (r : Fin 5000) : Fin 100000 := ⟨i.val * 50000 + j.val * 5000 + r.val, by omega⟩

/-! ## The blockwise arrangement -/

/-- A group's sum of `f` over the table, channel by channel, half by half, block by block. -/
def ksum (f : SX.Idx → EReal) (g : Fin 32) : EReal :=
  ∑ j2 : Fin 2, ∑ i : Fin 2, ∑ j : Fin 10, ∑ r : Fin 5000, f (ix2 (row i j r) (chan g j2))

def kmean (x : SX.Idx → EReal) (g : Fin 32) : EReal := Ideal.div (ksum x g) cnt
def kvar (x : SX.Idx → EReal) (g : Fin 32) : EReal :=
  Ideal.div (ksum (fun i => x i * x i) g) cnt - kmean x g * kmean x g
def kinv (x : SX.Idx → EReal) (g : Fin 32) : EReal := Ideal.rsqrt (kvar x g + eps)

/-- The per-channel scale `γ · r` and shift `β − (μ · γ) · r`. -/
def kscale (x : SX.Idx → EReal) (γ : SC.Idx → EReal) (ch : Fin 64) : EReal := γ (ix1 ch) * kinv x (grp ch)
def kshift (x : SX.Idx → EReal) (γ β : SC.Idx → EReal) (ch : Fin 64) : EReal :=
  β (ix1 ch) - (kmean x (grp ch) * γ (ix1 ch)) * kinv x (grp ch)

def kerTabAt (x : SX.Idx → EReal) (γ β : SC.Idx → EReal) (n : Fin 100000) (ch : Fin 64) : EReal :=
  max (x (ix2 n ch) * kscale x γ ch + kshift x γ β ch) zero32
def kerTab (x : SX.Idx → EReal) (γ β : SC.Idx → EReal) : SX.Idx → EReal := fun i => kerTabAt x γ β (i 0) (i 1)

/-! ## The whole-table arrangement -/

/-- A group's sum of `f` over all rows and its two channels. -/
def rsum (f : SX.Idx → EReal) (g : Fin 32) : EReal := ∑ n : Fin 100000, ∑ j2 : Fin 2, f (ix2 n (chan g j2))

def rmean (x : SX.Idx → EReal) (g : Fin 32) : EReal := Ideal.div (rsum x g) cnt
def rvar (x : SX.Idx → EReal) (g : Fin 32) : EReal :=
  Ideal.div (rsum (fun i => (x i - rmean x g) * (x i - rmean x g)) g) cnt
def rinv (x : SX.Idx → EReal) (g : Fin 32) : EReal := Ideal.rsqrt (rvar x g + eps)

def refTabAt (x : SX.Idx → EReal) (γ β : SC.Idx → EReal) (n : Fin 100000) (ch : Fin 64) : EReal :=
  max (((x (ix2 n ch) - rmean x (grp ch)) * rinv x (grp ch)) * γ (ix1 ch) + β (ix1 ch)) zero32
def refTab (x : SX.Idx → EReal) (γ β : SC.Idx → EReal) : SX.Idx → EReal := fun i => refTabAt x γ β (i 0) (i 1)

/-! ## The product with the weight matrix -/

/-- Row `f` of the gathered rows `g` times column `o` of `w`. -/
def prodAt (g : SG.Idx → EReal) (w : SW.Idx → EReal) (f : Fin 300000) (o : Fin 64) : EReal :=
  ∑ k : Fin 576, g (ix2 f k) * w (ix2 k o)
def prod (g : SG.Idx → EReal) (w : SW.Idx → EReal) : SO.Idx → EReal := fun i => prodAt g w (i 0) (i 1)

end Cert.GN

end
-- ==== Proof.KerStats.lean ====
/-
  The per-channel scale and shift, as the host computes them between the first two pipelines.

  The first pipeline leaves, per half of the table, the 64 column sums of the table and of its squares. The host adds the
  two halves, pairs neighbouring columns into the 32 groups, divides by the count to get each group's mean and mean
  square, takes  rsqrt (E[x²] − μ² + ε),  repeats mean and reciprocal root to the two channels of the group and folds them
  with γ and β into  scale = γ · r  and  shift = β − (μ · γ) · r.  Here those operations are composed into one term of the
  two sum arrays, γ and β; that term is what the second pipeline's scale and shift windows hold; and read at a channel it
  is the closed formula over the four column sums of the channel's group.
-/
import proofs.«153627_j25400436588659_2_alg».proof.Proof.Gen.KernelIdeal.Frame
import proofs.«153627_j25400436588659_2_alg».proof.Proof.Spec
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.KerStats

open Cert.KernelIdeal Cert.KernelIdeal.Gen Cert.GN Idealize.ShloMosaic Idealize.ShloMosaic.TcCoe Idealize.SL.Sem
open Idealize.ShloMosaic.ValueIdx

/-! ## The host operations, composed -/

/-- The two halves' column sums added: a [1, 64] row. -/
def colSum (a : FVec Ideal S2x1x64 .f32) : FVec Ideal S1x64 .f32 :=
  Host.reduceAdd (F := Ideal) a (constant (F := Ideal) S_ .f32 0x00000000#32) Facts₀.reducesTo_S2x1x64_S1x64_d0 Facts₀.h_S_

/-- A group's sum: the row cast to [32, 2] and summed along the pair. -/
def grpSum (a : FVec Ideal S2x1x64 .f32) : FVec Ideal S32 .f32 :=
  Host.reduceAdd (F := Ideal) (shapeCast S32x2 (colSum a) Facts₀.shapeCasts_S1x64_S32x2)
    (constant (F := Ideal) S_ .f32 0x00000000#32) Facts₀.reducesTo_S32x2_S32_d1 Facts₀.h_S_

/-- A group's sum divided by the count. -/
def grpMean (a : FVec Ideal S2x1x64 .f32) : FVec Ideal S32 .f32 :=
  Host.divf (F := Ideal) (grpSum a) (broadcastInDim S32 ![] Facts₀.bcast_S_S32 (constant (F := Ideal) S_ .f32 0x48435000#32))

/-- The reciprocal root of mean square minus squared mean plus the guard. -/
def grpInv (a1 a2 : FVec Ideal S2x1x64 .f32) : FVec Ideal S32 .f32 :=
  Host.rsqrt (F := Ideal)
    (addf (subf (grpMean a2) (mulf (grpMean a1) (grpMean a1)))
      (broadcastInDim S32 ![] Facts₀.bcast_S_S32 (constant (F := Ideal) S_ .f32 0x3727C5AC#32)))

/-- A per-group vector repeated to the two channels of each group. -/
def rep (v : FVec Ideal S32 .f32) : FVec Ideal S64 .f32 :=
  shapeCast S64 (broadcastInDim S32x2 ![0] Facts₀.bcast_S32_S32x2_0 v) Facts₀.shapeCasts_S32x2_S64

/-- The scale row γ · r. -/
def scaleOf (a1 a2 : FVec Ideal S2x1x64 .f32) (γ : FVec Ideal S64 .f32) : FVec Ideal S1x64 .f32 :=
  shapeCast S1x64 (mulf γ (rep (grpInv a1 a2))) Facts₀.shapeCasts_S64_S1x64

/-- The shift row β − (μ · γ) · r. -/
def shiftOf (a1 a2 : FVec Ideal S2x1x64 .f32) (γ β : FVec Ideal S64 .f32) : FVec Ideal S1x64 .f32 :=
  shapeCast S1x64 (subf β (mulf (mulf (rep (grpMean a1)) γ) (rep (grpInv a1 a2)))) Facts₀.shapeCasts_S64_S1x64

/-! ## What the second pipeline finds -/

/-- Over any buffer contents: after the host operations the scale's buffer holds the composed term of the contents of
    the two sum arrays and of γ. -/
theorem scale_after (W : Valuation τ sig (Elt Ideal)) : StableHlo.after hostOps1 W (Proc.devRef .tc main_v22)
    = scaleOf (W (Proc.devRef .tc main_v1_0)) (W (Proc.devRef .tc main_v1_1)) (W (Proc.devRef .tc main_arg2)) := by
  after_results_simp
  rfl

/-- … and the shift's buffer the composed term of the two sum arrays, γ and β. -/
theorem shift_after (W : Valuation τ sig (Elt Ideal)) : StableHlo.after hostOps1 W (Proc.devRef .tc main_v26)
    = shiftOf (W (Proc.devRef .tc main_v1_0)) (W (Proc.devRef .tc main_v1_1)) (W (Proc.devRef .tc main_arg2))
        (W (Proc.devRef .tc main_arg3)) := by
  after_results_simp
  rfl

section Entry

variable (m : (ℓ : Loc nD τ sig) → Buf (Elt Ideal) ℓ) (ρ : Dev nD → PrngReg) (c : Dev nD)

/-- An argument no host operation before the first pipeline writes, and the first pipeline does not hold, is as launched. -/
theorem W2_main_arg2 : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W2_main_arg3 : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-- The table is as launched when the second pipeline starts. -/
theorem table_entry : V3 m ρ c main_arg0 = m ((c : Thread nD τ).loc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

/-- The scale window's array is the composed term of pipeline 0's two sum arrays and γ. -/
theorem scale_entry : V3 m ρ c main_v22
    = scaleOf (W2 m ρ c (Proc.devRef .tc main_v1_0)) (W2 m ρ c (Proc.devRef .tc main_v1_1)) (m ((c : Thread nD τ).loc main_arg2)) := by
  rw [← W2_main_arg2 m ρ c]
  exact scale_after (W2 m ρ c)

/-- The shift window's array is the composed term of pipeline 0's two sum arrays, γ and β. -/
theorem shift_entry : V3 m ρ c main_v26
    = shiftOf (W2 m ρ c (Proc.devRef .tc main_v1_0)) (W2 m ρ c (Proc.devRef .tc main_v1_1)) (m ((c : Thread nD τ).loc main_arg2))
        (m ((c : Thread nD τ).loc main_arg3)) := by
  rw [← W2_main_arg2 m ρ c, ← W2_main_arg3 m ρ c]
  exact shift_after (W2 m ρ c)

end Entry

/-! ## Read at a channel -/

section Apply

variable (a a1 a2 : FVec Ideal S2x1x64 .f32) (γ β : FVec Ideal S64 .f32)

/-- The two halves' sum at a column. -/
theorem colSum_apply (ch : Fin 64) : colSum a (ix2 (0 : Fin 1) ch) = ∑ i : Fin 2, a (ix3 i (0 : Fin 1) ch) := by
  unfold colSum Host.reduceAdd
  rw [Ideal.hostReduceAdd_def, Ideal.hostReduceAdd_single Facts₀.reducesTo_S2x1x64_S1x64_d0 (by decide), constant_apply,
    Ideal.ofBits_zero_f32, zero_add]
  refine Finset.sum_congr rfl fun i _ => congrArg a (funext fun d => ?_)
  fin_cases d <;> rfl

/-- A group's sum is the sum over its two channels and the two halves. -/
theorem grpSum_apply (g : Fin 32) : grpSum a (ix1 g) = ∑ j2 : Fin 2, ∑ i : Fin 2, a (ix3 i (0 : Fin 1) (chan g j2)) := by
  unfold grpSum Host.reduceAdd
  rw [Ideal.hostReduceAdd_def, Ideal.hostReduceAdd_single Facts₀.reducesTo_S32x2_S32_d1 (by decide), constant_apply,
    Ideal.ofBits_zero_f32, zero_add]
  refine Finset.sum_congr rfl fun j2 _ => ?_
  rw [← colSum_apply]
  refine shapeCast_apply _ _ _ _ ?_
  rw [Shape.rowMajor_val_two, Shape.rowMajor_val_two]
  show 0 * 64 + (2 * g.val + j2.val) = g.val * 2 + j2.val
  omega

theorem grpMean_apply (g : Fin 32) :
    grpMean a (ix1 g) = Ideal.div (∑ j2 : Fin 2, ∑ i : Fin 2, a (ix3 i (0 : Fin 1) (chan g j2))) cnt := by
  rw [← grpSum_apply]; rfl

theorem grpInv_apply (g : Fin 32) :
    grpInv a1 a2 (ix1 g) = Ideal.rsqrt (grpMean a2 (ix1 g) - grpMean a1 (ix1 g) * grpMean a1 (ix1 g) + eps) := rfl

/-- The repeat reads a channel at its group. -/
theorem rep_apply (v : FVec Ideal S32 .f32) (ch : Fin 64) : rep v (ix1 ch) = v (ix1 (grp ch)) := by
  unfold rep
  rw [shapeCast_apply _ _ _ (ix2 (grp ch) (⟨ch.val % 2, Nat.mod_lt _ (by norm_num)⟩ : Fin 2)) (by
    rw [Shape.rowMajor_val_two, Shape.rowMajor_val_one]
    show ch.val / 2 * 2 + ch.val % 2 = ch.val
    omega)]
  refine broadcastInDim_apply _ _ _ _ _ fun d => ?_
  fin_cases d
  rfl

theorem scaleOf_apply (ch : Fin 64) :
    scaleOf a1 a2 γ (ix2 (0 : Fin 1) ch)
      = γ (ix1 ch) * Ideal.rsqrt (Ideal.div (∑ j2 : Fin 2, ∑ i : Fin 2, a2 (ix3 i (0 : Fin 1) (chan (grp ch) j2))) cnt
          - Ideal.div (∑ j2 : Fin 2, ∑ i : Fin 2, a1 (ix3 i (0 : Fin 1) (chan (grp ch) j2))) cnt
            * Ideal.div (∑ j2 : Fin 2, ∑ i : Fin 2, a1 (ix3 i (0 : Fin 1) (chan (grp ch) j2))) cnt + eps) := by
  unfold scaleOf
  rw [shapeCast_a_1a_apply, mulf_apply, rep_apply, grpInv_apply, grpMean_apply, grpMean_apply]

theorem shiftOf_apply (ch : Fin 64) :
    shiftOf a1 a2 γ β (ix2 (0 : Fin 1) ch)
      = β (ix1 ch) - (Ideal.div (∑ j2 : Fin 2, ∑ i : Fin 2, a1 (ix3 i (0 : Fin 1) (chan (grp ch) j2))) cnt * γ (ix1 ch))
          * Ideal.rsqrt (Ideal.div (∑ j2 : Fin 2, ∑ i : Fin 2, a2 (ix3 i (0 : Fin 1) (chan (grp ch) j2))) cnt
            - Ideal.div (∑ j2 : Fin 2, ∑ i : Fin 2, a1 (ix3 i (0 : Fin 1) (chan (grp ch) j2))) cnt
              * Ideal.div (∑ j2 : Fin 2, ∑ i : Fin 2, a1 (ix3 i (0 : Fin 1) (chan (grp ch) j2))) cnt + eps) := by
  unfold shiftOf
  rw [shapeCast_a_1a_apply, subf_apply, mulf_apply, mulf_apply, rep_apply, rep_apply, grpInv_apply, grpMean_apply, grpMean_apply]

end Apply

end Cert.KernelIdeal.KerStats

end
-- ==== Proof.KerTable.lean ====
/-
  The kernel's scale-shift-and-cutoff region (the middle one of its three regions) as one function of whole arrays.

  The region walks the 100000 × 64 table in 20 blocks of 5000 rows.  At each block it multiplies every entry by its
  channel's scale, adds the channel's shift, and takes the maximum with zero; the narrowing to the 16-bit format that
  follows is the identity on the extended reals.  The scale and the shift are single rows of 64 numbers, read whole at
  every block.  Because block t is rows 5000·t … 5000·t + 4999 of the table and the 20 blocks tile it, the array the
  region leaves is  i ↦ max (x i · scale (i₁) + shift (i₁)) 0  of the three arrays the region finds on entry.
-/
import proofs.«153627_j25400436588659_2_alg».proof.Proof.Gen.KernelIdeal.Frame
import proofs.«153627_j25400436588659_2_alg».proof.Proof.Spec
import Idealize.ShloMosaic.Lib.Pipeline.Value
import Idealize.ShloMosaic.Lib.ValueLayout
import Idealize.ShloMosaic.Lib.ValueIdx

set_option maxRecDepth 16384

noncomputable section

open Idealize.ShloMosaic Idealize.ShloMosaic.TcCoe Idealize.SL.Sem
open Idealize.ShloMosaic.Pipeline (Dat)

namespace Cert.KernelIdeal.KerValue

open Cert.KernelIdeal Cert.KernelIdeal.Gen Cert.GN Idealize.ShloMosaic.ValueIdx

/-- The zero offsets of a whole-block access, as a constant function. -/
theorem hz : (![0, 0] : Fin 2 → Nat) = fun _ => 0 := funext fun a => by fin_cases a <;> rfl

/-- One entry of the block the body stores: the loaded entry times its channel's scale plus its channel's shift,
    cut off below at zero (the row broadcasts read the single row; the narrowing is the identity). -/
theorem pay1_apply (v0 : FVec Ideal S5000x64 .f32) (v1 v5 : FVec Ideal S1x64 .f32) (p : Fin 5000) (q : Fin 64) :
    (k1_pay1 (F := Ideal) v0 v1 v5 (ix2 p q) : EReal)
      = max ((v0 (ix2 p q) : EReal) * (v1 (ix2 (0 : Fin 1) q) : EReal) + (v5 (ix2 (0 : Fin 1) q) : EReal)) (Ideal.ofBits .f32 0x00000000#32) := by
  unfold k1_pay1
  rw [truncf_apply, maximumf_apply, addf_apply, mulf_apply, broadcast_apply, shapeCast_self, shapeCast_self,
    broadcastTo_1b_ab_apply, broadcastTo_1b_ab_apply]
  rfl

/-- The whole-table function: every entry times its channel's scale plus its channel's shift, cut off below at zero. -/
abbrev affRelu (x : S100000x64.Idx → EReal) (s b : S1x64.Idx → EReal) : S100000x64.Idx → EReal :=
  fun i => max (x i * s (ix2 (0 : Fin 1) (i 1)) + b (ix2 (0 : Fin 1) (i 1))) Cert.GN.zero32

theorem affRelu_apply (x : S100000x64.Idx → EReal) (s b : S1x64.Idx → EReal) (i : S100000x64.Idx) :
    affRelu x s b i = max (x i * s (ix2 (0 : Fin 1) (i 1)) + b (ix2 (0 : Fin 1) (i 1))) Cert.GN.zero32 := rfl

/-- The block indices over the grid: the table's and the result's block at point t is block (t, 0); the scale's and
    the shift's is always block (0, 0). -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- An entry of the stored block is the whole-table function at the table index it lands on, once the loaded blocks
    are known to be the arrays read at the matching places. -/
theorem point1 (x : S100000x64.Idx → EReal) (s b : S1x64.Idx → EReal)
    (v0 : FVec Ideal S5000x64 .f32) (v1 v5 : FVec Ideal S1x64 .f32) (j : S5000x64.Idx) (i : S100000x64.Idx)
    (h0 : (v0 j : EReal) = x i)
    (h1 : ∀ q : Fin 64, (v1 (ix2 (0 : Fin 1) q) : EReal) = s (ix2 (0 : Fin 1) q))
    (h5 : ∀ q : Fin 64, (v5 (ix2 (0 : Fin 1) q) : EReal) = b (ix2 (0 : Fin 1) q))
    (hi : (i 1).val = (j 1).val) :
    (k1_pay1 (F := Ideal) v0 v1 v5 j : EReal) = affRelu x s b i := by
  obtain ⟨p, q, rfl⟩ : ∃ (p : Fin 5000) (q : Fin 64), j = ix2 p q := ⟨j 0, j 1, eq_ix2 j⟩
  obtain ⟨n, q', rfl⟩ : ∃ (n : Fin 100000) (q' : Fin 64), i = ix2 n q' := ⟨i 0, i 1, eq_ix2 i⟩
  obtain rfl : q' = q := Fin.ext hi
  rw [pay1_apply, h0, h1, h5]
  rfl

variable (V : (c : Dev nD) → (b : Ref sig .tc) → Buf (Elt Ideal) ((c : Thread nD τ).loc b))

/-- What point t writes back is block t of the whole-table function of the arrays the region finds. -/
theorem flushed1_eq (c : Dev nD) (t : Fin cfg1.N) :
    (Gen.dat1 (F := Ideal) V c).flushed 3 t
      = ((cfg1.win 3).blk t).view.read (Elt Ideal) (affRelu (V c main_arg0) (V c main_v22) (V c main_v26)) := by
  show (cfg1.win 3).cut (grid1.coords t) ((Gen.dat1 V c).after 3 t) = _
  rw [Gen.after1_3]
  unfold Gen.out1_3
  rw [View.canon_unit_zero hz]
  simp only [View.ld_unit_zero (S := S5000x64) hz, View.ld_unit_zero (S := S1x64) hz]
  obtain ⟨e00, e01, e10, e11, e20, e21, e30, e31⟩ := idx_facts1 t
  funext j
  show (k1_pay1 (F := Ideal) (iblk1 V c 0 t) (iblk1 V c 1 t) (iblk1 V c 2 t) j : EReal)
    = affRelu (V c main_arg0) (V c main_v22) (V c main_v26) (((cfg1.win 3).blk t).view.emb j)
  refine point1 (V c main_arg0) (V c main_v22) (V c main_v26) (iblk1 V c 0 t) (iblk1 V c 1 t) (iblk1 V c 2 t) j
    (((cfg1.win 3).blk t).view.emb j) ?_ (fun q => ?_) (fun q => ?_) ?_
  · show V c main_arg0 (((cfg1.win 0).blk t).view.emb j) = V c main_arg0 (((cfg1.win 3).blk t).view.emb j)
    refine congrArg (V c main_arg0) (funext fun a => Fin.ext ?_)
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 64 + 1 * (j 1).val = win1_3.index t (1 : Fin 2) * 64 + 1 * (j 1).val; omega
  · show V c main_v22 (((cfg1.win 1).blk t).view.emb (ix2 (0 : Fin 1) q)) = V c main_v22 (ix2 (0 : Fin 1) q)
    refine congrArg (V c main_v22) (funext fun a => Fin.ext ?_)
    match a with
    | ⟨0, _⟩ => show win1_1.index t (0 : Fin 2) * 1 + 1 * 0 = 0; omega
    | ⟨1, _⟩ => show win1_1.index t (1 : Fin 2) * 64 + 1 * q.val = q.val; omega
  · show V c main_v26 (((cfg1.win 2).blk t).view.emb (ix2 (0 : Fin 1) q)) = V c main_v26 (ix2 (0 : Fin 1) q)
    refine congrArg (V c main_v26) (funext fun a => Fin.ext ?_)
    match a with
    | ⟨0, _⟩ => show win1_2.index t (0 : Fin 2) * 1 + 1 * 0 = 0; omega
    | ⟨1, _⟩ => show win1_2.index t (1 : Fin 2) * 64 + 1 * q.val = q.val; omega
  · show win1_3.index t (1 : Fin 2) * 64 + 1 * (j 1).val = (j 1).val
    omega

/-- A table index lies in point t's block iff each coordinate lies in the block's range on its axis. -/
theorem mem_blk1 (t : Fin cfg1.N) (i : S100000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v27).slice (win1_3.rect t)).set ↔ _
  rw [View.set_slice_whole, Rect.mem_set_unit]
  exact Iff.rfl

/-- Every table index lies in some point's block: row r is in block r / 5000. -/
theorem cover1 (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  have hN : cfg1.N = 20 := N_1
  have ht : (i 0).val / 5000 < cfg1.N := by rw [hN]; omega
  obtain ⟨-, -, -, -, -, -, e30, e31⟩ := idx_facts1 ⟨(i 0).val / 5000, ht⟩
  refine ⟨⟨(i 0).val / 5000, ht⟩, flush1_3 _, ?_⟩
  rw [mem_blk1]
  intro a
  match a with
  | ⟨0, _⟩ =>
    show win1_3.index ⟨(i 0).val / 5000, ht⟩ (0 : Fin 2) * 5000 ≤ (i 0).val ∧ (i 0).val < win1_3.index ⟨(i 0).val / 5000, ht⟩ (0 : Fin 2) * 5000 + 5000
    rw [e30]; show (i 0).val / 5000 * 5000 ≤ (i 0).val ∧ (i 0).val < (i 0).val / 5000 * 5000 + 5000; omega
  | ⟨1, _⟩ =>
    show win1_3.index ⟨(i 0).val / 5000, ht⟩ (1 : Fin 2) * 64 ≤ (i 1).val ∧ (i 1).val < win1_3.index ⟨(i 0).val / 5000, ht⟩ (1 : Fin 2) * 64 + 64
    rw [e31]; omega

/-- The array the region leaves: the whole-table function of the three arrays it finds on entry. -/
theorem table_eq (c : Dev nD) :
    (Gen.dat1 (F := Ideal) V c).arrAt 3 cfg1.N
      = affRelu (V c main_arg0) (V c main_v22) (V c main_v26) :=
  (Gen.dat1 (F := Ideal) V c).arrAt_eq_of_cover 3 (affRelu (V c main_arg0) (V c main_v22) (V c main_v26))
    (fun t _ => flushed1_eq V c t) cover1

end Cert.KernelIdeal.KerValue

end
-- ==== Proof.KerRows.lean ====
/-
  The host operations between the kernel's scale-shift-and-cutoff region and its matrix-product region.

  Between the two regions the program turns the index array (300000 × 9 row numbers, negative ones counted from the end:
  a negative entry has 100000 added) into the 300000 × 9 × 1 form the gather wants, gathers those rows of the 100000 × 64
  table the region before left (300000 × 9 × 64), lays each fine row's nine gathered rows side by side (300000 × 576),
  and narrows the 576 × 64 weight matrix to the 16-bit format — the identity on the extended reals.  Here the two arrays
  the product region finds on entry are read as those operations of the table and of the launch contents of the index
  array and of the weights; the gather itself is left as it is printed.
-/
import proofs.«153627_j25400436588659_2_alg».proof.Proof.Gen.KernelIdeal.Frame
import Idealize.ShloMosaic.Lib.StableHlo.Run
import Idealize.ShloMosaic.Lib.ValueIdx

set_option maxRecDepth 16384

noncomputable section

open Idealize.ShloMosaic Idealize.ShloMosaic.TcCoe Idealize.SL.Sem

namespace Cert.KernelIdeal.KerRows

open Cert.KernelIdeal Cert.KernelIdeal.Gen Idealize.ShloMosaic.ValueIdx

/-- The gathered rows of a table `T` under an index array `x1`: a negative index has 100000 added, the indices are
    viewed 300000 × 9 × 1, the rows gathered, and each fine row's nine rows laid side by side. -/
def rowsOf (T : FVec Ideal S100000x64 .bf16) (x1 : IVec S300000x9 32) : FVec Ideal S300000x576 .bf16 :=
  shapeCast _ (Host.gather gather_S100000x64_S300000x9x1_S300000x9x64_2_0_n_n_0_2_164 T
    (broadcastInDim S300000x9x1 ![0, 1] bcast_S300000x9_S300000x9x1_0_1
      (select (cmpi .slt x1 (broadcastInDim S300000x9 ![] bcast_S_S300000x9 (constantI S_ 32 0#32)))
        (addi x1 (broadcastInDim S300000x9 ![] bcast_S_S300000x9 (constantI S_ 32 100000#32))) x1)))
    shapeCasts_S300000x9x64_S300000x576

variable (m : (ℓ : Loc nD τ sig) → Buf (Elt Ideal) ℓ) (ρ : Dev nD → PrngReg)

/-- The index array is as launched when the second region is left: no host operation and no region before writes it. -/
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-- The weight matrix is as launched when the second region is left: no host operation and no region before writes it. -/
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

/-- The gathered rows the product region finds: the rows of the table the region before left, under the launched
    index array. -/
theorem rows_entry (c : Dev nD) :
    V5 m ρ c main_v35 = rowsOf (W4 m ρ c (Proc.devRef .tc main_v27)) (m ((c : Thread nD τ).loc main_arg1)) := by
  show StableHlo.after hostOps2 (W4 m ρ c) (Proc.devRef .tc main_v35) = _
  after_results
  rw [W4_main_arg1 m ρ c]
  rfl

/-- The weight matrix the product region finds is the launched one: the narrowing is the identity on the extended reals. -/
theorem weights_entry (c : Dev nD) :
    (V5 m ρ c main_v36 : S576x64.Idx → EReal) = (m ((c : Thread nD τ).loc main_arg4) : S576x64.Idx → EReal) := by
  show StableHlo.after hostOps2 (W4 m ρ c) (Proc.devRef .tc main_v36) = _
  after_results
  rw [W4_main_arg4 m ρ c]
  rfl

end Cert.KernelIdeal.KerRows

end
-- ==== Proof.LibPlainMatmul.lean ====
/-
  A plain matrix product on the extended reals, read at an entry.

  A `tpu.matmul` of an [m, K] operand by a [K, n] operand — axis 1 of the left contracted with axis 0 of the right, no batch
  axis — accumulated into the f32 zero splat, and the host's `dot_general` of the same form, read at (p, q), are the textbook
  entry  Σ_k l(p, k) · r(k, q).  The dimension
  record is taken in literal form (the six axis lists written out over any well-formedness witness), so a printed record of
  that form is an instance by unfolding its name.  The operands' formats are free: at the ideal values every format is the
  extended reals.
-/
import Idealize.ShloMosaic.PureOps.Ideal.Laws
import Idealize.ShloMosaic.Lib.ValueIdx

noncomputable section

namespace Cert.PlainMatmul

open Idealize.ShloMosaic Idealize.ShloMosaic.ValueIdx

/-- The literal record of a plain [m, K] × [K, n] product. -/
abbrev plain {m K n : ℕ}
    (wf : DotDims.WF (⟨2, ![m, K]⟩ : Shape) (⟨2, ![K, n]⟩ : Shape) (⟨2, ![m, n]⟩ : Shape) [1] [0] [0] [1] [] []) :
    DotDims (⟨2, ![m, K]⟩ : Shape) (⟨2, ![K, n]⟩ : Shape) (⟨2, ![m, n]⟩ : Shape) :=
  { lhsContracting := [1], rhsContracting := [0], lhsNonContracting := [0], rhsNonContracting := [1],
    lhsBatch := [], rhsBatch := [], wf := wf }

section
variable {m K n : ℕ}
  (wf : DotDims.WF (⟨2, ![m, K]⟩ : Shape) (⟨2, ![K, n]⟩ : Shape) (⟨2, ![m, n]⟩ : Shape) [1] [0] [0] [1] [] [])
  (j : (⟨2, ![m, n]⟩ : Shape).Idx) (k : (plain wf).contr.Idx)

/-- The left operand's row is the result's row. -/
theorem lhs_row : ((plain wf).lhsIdx j k 0).val = (j 0).val := by
  unfold DotDims.lhsIdx
  rw [dif_neg (show ¬(0 : Fin (⟨2, ![m, K]⟩ : Shape).rank) ∈ (plain wf).lhsBatch from List.not_mem_nil),
    dif_pos (show (0 : Fin (⟨2, ![m, K]⟩ : Shape).rank) ∈ (plain wf).lhsNonContracting from List.mem_singleton.mpr rfl)]
  rfl

/-- The left operand's column is the contracted coordinate. -/
theorem lhs_col : ((plain wf).lhsIdx j k 1).val = (k ⟨0, Nat.one_pos⟩).val :=
  (plain wf).lhsIdx_val_of_single rfl j k

/-- The right operand's row is the contracted coordinate. -/
theorem rhs_row : ((plain wf).rhsIdx j k 0).val = (k ⟨0, Nat.one_pos⟩).val :=
  (plain wf).rhsIdx_val_of_single rfl j k

/-- The right operand's column is the result's column. -/
theorem rhs_col : ((plain wf).rhsIdx j k 1).val = (j 1).val := by
  unfold DotDims.rhsIdx
  rw [dif_neg (show ¬(1 : Fin (⟨2, ![K, n]⟩ : Shape).rank) ∈ (plain wf).rhsBatch from List.not_mem_nil),
    dif_pos (show (1 : Fin (⟨2, ![K, n]⟩ : Shape).rank) ∈ (plain wf).rhsNonContracting from List.mem_singleton.mpr rfl)]
  rfl

end

/-- The sum over the record's contraction index, re-indexed by the contracted coordinate. -/
theorem contr_sum {m K n : ℕ}
    (wf : DotDims.WF (⟨2, ![m, K]⟩ : Shape) (⟨2, ![K, n]⟩ : Shape) (⟨2, ![m, n]⟩ : Shape) [1] [0] [0] [1] [] [])
    (l : (⟨2, ![m, K]⟩ : Shape).Idx → EReal) (r : (⟨2, ![K, n]⟩ : Shape).Idx → EReal) (p : Fin m) (q : Fin n) :
    (∑ k : (plain wf).contr.Idx, l ((plain wf).lhsIdx (ix2 p q) k) * r ((plain wf).rhsIdx (ix2 p q) k))
      = ∑ k : Fin K, l (ix2 p k) * r (ix2 k q) := by
  rw [← Equiv.sum_comp (contrEquiv1 (plain wf) K rfl rfl).symm]
  refine Finset.sum_congr rfl fun k _ => ?_
  have hk := contrEquiv1_symm_val (plain wf) K rfl rfl k
  have el : (plain wf).lhsIdx (ix2 p q) ((contrEquiv1 (plain wf) K rfl rfl).symm k) = ix2 p k :=
    funext fun a => Fin.ext (by
      match a with
      | ⟨0, _⟩ => exact lhs_row wf _ _
      | ⟨1, _⟩ => exact (lhs_col wf _ _).trans hk)
  have er : (plain wf).rhsIdx (ix2 p q) ((contrEquiv1 (plain wf) K rfl rfl).symm k) = ix2 k q :=
    funext fun a => Fin.ext (by
      match a with
      | ⟨0, _⟩ => exact (rhs_row wf _ _).trans hk
      | ⟨1, _⟩ => exact rhs_col wf _ _)
  rw [el, er]

/-- Entry (p, q) of a kernel's product into the zero splat is the sum over the contracted axis of the entries' products. -/
theorem matmul_zero_apply {m K n : ℕ} {φ₁ φ₂ : FTy}
    (wf : DotDims.WF (⟨2, ![m, K]⟩ : Shape) (⟨2, ![K, n]⟩ : Shape) (⟨2, ![m, n]⟩ : Shape) [1] [0] [0] [1] [] [])
    (prec : Option ContractPrecision)
    (l : FVec Ideal (⟨2, ![m, K]⟩ : Shape) φ₁) (r : FVec Ideal (⟨2, ![K, n]⟩ : Shape) φ₂) (p : Fin m) (q : Fin n) :
    FloatOps.matmul (plain wf) prec l r (constant (⟨2, ![m, n]⟩ : Shape) .f32 0x00000000#32) (ix2 p q)
      = ∑ k : Fin K, l (ix2 p k) * r (ix2 k q) := by
  rw [Ideal.matmul_constant_zero_apply]
  exact contr_sum wf l r p q

/-- Entry (p, q) of the host's `dot_general` of the same form, under any schedule key, is the same sum. -/
theorem dotGeneral_apply {m K n : ℕ} {φ₁ φ₂ : FTy}
    (wf : DotDims.WF (⟨2, ![m, K]⟩ : Shape) (⟨2, ![K, n]⟩ : Shape) (⟨2, ![m, n]⟩ : Shape) [1] [0] [0] [1] [] [])
    (prec : Option ContractPrecision) (sched : HostSchedule)
    (l : FVec Ideal (⟨2, ![m, K]⟩ : Shape) φ₁) (r : FVec Ideal (⟨2, ![K, n]⟩ : Shape) φ₂) (p : Fin m) (q : Fin n) :
    FloatOps.dotGeneral (plain wf) prec sched l r (ix2 p q) = ∑ k : Fin K, l (ix2 p k) * r (ix2 k q) := by
  rw [Ideal.dotGeneral_apply]
  exact contr_sum wf l r p q

end Cert.PlainMatmul

end
-- ==== Proof.KerProduct.lean ====
/-
  The kernel's matrix-product region (the last of its three regions) as one function of whole arrays.

  The region walks the 300000 × 576 array of gathered rows in 30 blocks of 10000 rows.  At each block it multiplies the
  block by the whole 576 × 64 weight matrix, accumulating into zero, and stores the 10000 × 64 result.  Entry (p, q) of
  a block's product is  Σ_k l(p, k) · r(k, q)  over the 576 contracted coordinates.  Because block t is rows
  10000·t … 10000·t + 9999 and the 30 blocks tile the rows, the array the region leaves is the product of the two arrays
  it finds on entry: entry (f, o) is  Σ_k g(f, k) · w(k, o).
-/
import proofs.«153627_j25400436588659_2_alg».proof.Proof.Gen.KernelIdeal.Frame
import proofs.«153627_j25400436588659_2_alg».proof.Proof.Spec
import proofs.«153627_j25400436588659_2_alg».proof.Proof.LibPlainMatmul
import Idealize.ShloMosaic.Lib.Pipeline.Value
import Idealize.ShloMosaic.Lib.ValueIdx

set_option maxRecDepth 16384

noncomputable section

open Idealize.ShloMosaic Idealize.ShloMosaic.TcCoe Idealize.SL.Sem
open Idealize.ShloMosaic.Pipeline (Dat)

namespace Cert.KernelIdeal.KerValue

open Cert.KernelIdeal Cert.KernelIdeal.Gen Cert.GN Idealize.ShloMosaic.ValueIdx

/-- The zero offsets of a whole-block access, as a constant function. -/
theorem hz2 : (![0, 0] : Fin 2 → Nat) = fun _ => 0 := funext fun a => by fin_cases a <;> rfl

/-- One entry of the block the body stores: row p of the loaded rows times column q of the loaded matrix, summed over
    the 576 contracted coordinates (the product accumulates into zero). -/
theorem pay2_apply (v0 : FVec Ideal S10000x576 .bf16) (v2 : FVec Ideal S576x64 .bf16) (p : Fin 10000) (q : Fin 64) :
    (k2_pay1 (F := Ideal) v0 v2 (ix2 p q) : EReal) = ∑ k : Fin 576, (v0 (ix2 p k) : EReal) * (v2 (ix2 k q) : EReal) := by
  unfold k2_pay1
  rw [shapeCast_self, shapeCast_self]
  exact Cert.PlainMatmul.matmul_zero_apply dot_S10000x576_S576x64_S10000x64_1_0_0_1_n_n_wf none v0 v2 p q

/-- The block indices over the grid: the gathered rows' and the result's block at point t is block (t, 0); the
    weight matrix's is always block (0, 0). -/
theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- An entry of the stored block is the whole-array product at the index it lands on, once the loaded blocks are known
    to be the arrays read at the matching places. -/
theorem point2 (g : S300000x576.Idx → EReal) (w : S576x64.Idx → EReal)
    (v0 : FVec Ideal S10000x576 .bf16) (v2 : FVec Ideal S576x64 .bf16) (j : S10000x64.Idx) (i : S300000x64.Idx)
    (h0 : ∀ k : Fin 576, (v0 (ix2 (j 0) k) : EReal) = g (ix2 (i 0) k))
    (h2 : ∀ (k : Fin 576) (q : Fin 64), (v2 (ix2 k q) : EReal) = w (ix2 k q))
    (hi : (i 1).val = (j 1).val) :
    (k2_pay1 (F := Ideal) v0 v2 j : EReal) = Cert.GN.prod g w i := by
  obtain ⟨p, q, rfl⟩ : ∃ (p : Fin 10000) (q : Fin 64), j = ix2 p q := ⟨j 0, j 1, eq_ix2 j⟩
  obtain ⟨n, q', rfl⟩ : ∃ (n : Fin 300000) (q' : Fin 64), i = ix2 n q' := ⟨i 0, i 1, eq_ix2 i⟩
  obtain rfl : q' = q := Fin.ext hi
  rw [pay2_apply]
  show _ = ∑ k : Fin 576, g (ix2 n k) * w (ix2 k q')
  exact Finset.sum_congr rfl fun k _ => by rw [h0 k, h2 k q']

variable (V : (c : Dev nD) → (b : Ref sig .tc) → Buf (Elt Ideal) ((c : Thread nD τ).loc b))

/-- What point t writes back is block t of the product of the two arrays the region finds. -/
theorem flushed2_eq (c : Dev nD) (t : Fin cfg2.N) :
    (Gen.dat2 (F := Ideal) V c).flushed 2 t
      = ((cfg2.win 2).blk t).view.read (Elt Ideal) (Cert.GN.prod (V c main_v35) (V c main_v36)) := by
  show (cfg2.win 2).cut (grid2.coords t) ((Gen.dat2 V c).after 2 t) = _
  rw [Gen.after2_2]
  unfold Gen.out2_2
  rw [View.canon_unit_zero hz2]
  simp only [View.ld_unit_zero (S := S10000x576) hz2, View.ld_unit_zero (S := S576x64) hz2]
  obtain ⟨e00, e01, e10, e11, e20, e21⟩ := idx_facts2 t
  funext j
  show (k2_pay1 (F := Ideal) (iblk2 V c 0 t) (iblk2 V c 1 t) j : EReal)
    = Cert.GN.prod (V c main_v35) (V c main_v36) (((cfg2.win 2).blk t).view.emb j)
  refine point2 (V c main_v35) (V c main_v36) (iblk2 V c 0 t) (iblk2 V c 1 t) j
    (((cfg2.win 2).blk t).view.emb j) (fun k => ?_) (fun k q => ?_) ?_
  · show V c main_v35 (((cfg2.win 0).blk t).view.emb (ix2 (j 0) k)) = V c main_v35 (ix2 ((((cfg2.win 2).blk t).view.emb j) 0) k)
    refine congrArg (V c main_v35) (funext fun a => Fin.ext ?_)
    match a with
    | ⟨0, _⟩ => show win2_0.index t (0 : Fin 2) * 10000 + 1 * (j 0).val = win2_2.index t (0 : Fin 2) * 10000 + 1 * (j 0).val; omega
    | ⟨1, _⟩ => show win2_0.index t (1 : Fin 2) * 576 + 1 * k.val = k.val; omega
  · show V c main_v36 (((cfg2.win 1).blk t).view.emb (ix2 k q)) = V c main_v36 (ix2 k q)
    refine congrArg (V c main_v36) (funext fun a => Fin.ext ?_)
    match a with
    | ⟨0, _⟩ => show win2_1.index t (0 : Fin 2) * 576 + 1 * k.val = k.val; omega
    | ⟨1, _⟩ => show win2_1.index t (1 : Fin 2) * 64 + 1 * q.val = q.val; omega
  · show win2_2.index t (1 : Fin 2) * 64 + 1 * (j 1).val = (j 1).val
    omega

/-- A result index lies in point t's block iff each coordinate lies in the block's range on its axis. -/
theorem mem_blk2 (t : Fin cfg2.N) (i : S300000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v37).slice (win2_2.rect t)).set ↔ _
  rw [View.set_slice_whole, Rect.mem_set_unit]
  exact Iff.rfl

/-- Every result index lies in some point's block: row r is in block r / 10000. -/
theorem cover2 (i : S300000x64.Idx) :
    ∃ t : Fin cfg2.N, (cfg2.win 2).flush t = true ∧ i ∈ ((cfg2.win 2).blk t).view.set := by
  have hi0 : (i 0).val < 300000 := (i 0).isLt
  have hi1 : (i 1).val < 64 := (i 1).isLt
  have hN : cfg2.N = 30 := N_2
  have ht : (i 0).val / 10000 < cfg2.N := by rw [hN]; omega
  obtain ⟨-, -, -, -, e20, e21⟩ := idx_facts2 ⟨(i 0).val / 10000, ht⟩
  refine ⟨⟨(i 0).val / 10000, ht⟩, flush2_2 _, ?_⟩
  rw [mem_blk2]
  intro a
  match a with
  | ⟨0, _⟩ =>
    show win2_2.index ⟨(i 0).val / 10000, ht⟩ (0 : Fin 2) * 10000 ≤ (i 0).val ∧ (i 0).val < win2_2.index ⟨(i 0).val / 10000, ht⟩ (0 : Fin 2) * 10000 + 10000
    rw [e20]; show (i 0).val / 10000 * 10000 ≤ (i 0).val ∧ (i 0).val < (i 0).val / 10000 * 10000 + 10000; omega
  | ⟨1, _⟩ =>
    show win2_2.index ⟨(i 0).val / 10000, ht⟩ (1 : Fin 2) * 64 ≤ (i 1).val ∧ (i 1).val < win2_2.index ⟨(i 0).val / 10000, ht⟩ (1 : Fin 2) * 64 + 64
    rw [e21]; omega

/-- The array the region leaves: the product of the gathered rows and the weight matrix it finds on entry. -/
theorem product_eq (c : Dev nD) :
    (Gen.dat2 (F := Ideal) V c).arrAt 2 cfg2.N = Cert.GN.prod (V c main_v35) (V c main_v36) :=
  (Gen.dat2 (F := Ideal) V c).arrAt_eq_of_cover 2 (Cert.GN.prod (V c main_v35) (V c main_v36))
    (fun t _ => flushed2_eq V c t) cover2

end Cert.KernelIdeal.KerValue

end
-- ==== Proof.KerGlue.lean ====
/-
  The kernel's normalised table from its parts.  The kernel views the [100000, 64] table as two halves of 50000 rows,
  sums each half's columns (and the columns of the squares) as ten blocks of 5000 rows, adds the halves and the two
  channels of each group, and from those sums forms one scale and one shift per channel; every entry then becomes
  `max (x · scale + shift) 0`.  Row `r` of block `j` of half `i` is row `i · 50000 + j · 5000 + r` of the table, so
  the added sums are the specification's blockwise group sums `ksum`, the scale and shift are `kscale` and `kshift`,
  and the table is `kerTab`.  Everything is stated over arbitrary arrays satisfying the equations the parts are known
  by; the side conditions of the shape casts are taken from the program's own fact class.
-/
import proofs.«153627_j25400436588659_2_alg».proof.KernelIdeal
import proofs.«153627_j25400436588659_2_alg».proof.Proof.Spec
import Idealize.ShloMosaic.Lib.ValueIdx
import Idealize.ShloMosaic.Lib.Pipeline.Value

noncomputable section

namespace Cert.KernelIdeal.KerGlue

open Cert.KernelIdeal Cert.KernelIdeal.Facts₀ Cert.GN Idealize.ShloMosaic Idealize.ShloMosaic.ValueIdx

variable [Cert.KernelIdeal.Facts₀]

/-- The table viewed as two halves of 50000 rows: row `k` of half `i` is row `i · 50000 + k` of the table. -/
theorem halves_apply (x : FVec Ideal S100000x64 .f32) (i : Fin 2) (k : Fin 50000) (ch : Fin 64) :
    shapeCast S2x50000x64 x shapeCasts_S100000x64_S2x50000x64 (ix3 i k ch)
      = x (ix2 ⟨i.val * 50000 + k.val, by omega⟩ ch) := by
  refine shapeCast_apply x shapeCasts_S100000x64_S2x50000x64 (ix3 i k ch) (ix2 ⟨i.val * 50000 + k.val, by omega⟩ ch) ?_
  rewrite [Shape.rowMajor_val_two, Shape.rowMajor_val_three]
  show (i.val * 50000 + k.val) * 64 + ch.val = (i.val * 50000 + k.val) * 64 + ch.val
  rfl

/-- Row `r` of block `j` of half `i`, read through the view in halves. -/
theorem halves_row (x : FVec Ideal S100000x64 .f32) (i : Fin 2) (j : Fin 10) (r : Fin 5000) (ch : Fin 64) :
    shapeCast S2x50000x64 x shapeCasts_S100000x64_S2x50000x64 (ix3 i ⟨j.val * 5000 + r.val, by omega⟩ ch)
      = x (ix2 (row i j r) ch) := by
  rw [halves_apply]
  refine congrArg (fun n => x (ix2 n ch)) (Fin.ext ?_)
  show i.val * 50000 + (j.val * 5000 + r.val) = i.val * 50000 + j.val * 5000 + r.val
  omega

/-- The per-half column sums, added over the two halves and the two channels of a group, are the group's blockwise sum. -/
theorem parts_sum (f : SX.Idx → EReal) (a : FVec Ideal S2x1x64 .f32)
    (ha : ∀ (i : Fin 2) (ch : Fin 64), a (ix3 i (0 : Fin 1) ch) = ∑ j : Fin 10, ∑ r : Fin 5000, f (ix2 (row i j r) ch))
    (g : Fin 32) :
    ∑ j2 : Fin 2, ∑ i : Fin 2, a (ix3 i (0 : Fin 1) (chan g j2)) = ksum f g := by
  unfold ksum
  refine Finset.sum_congr rfl fun j2 _ => Finset.sum_congr rfl fun i _ => ?_
  rw [ha]

/-- The kernel's table, assembled from what its two pipelines and the host operations between them compute, is the
    specification's blockwise arrangement. -/
theorem kerTab_of_parts (x : FVec Ideal S100000x64 .f32) (γ β : FVec Ideal S64 .f32) (a1 a2 : FVec Ideal S2x1x64 .f32)
    (scale shift : FVec Ideal S1x64 .f32)
    (ha1 : ∀ (i : Fin 2) (ch : Fin 64), a1 (ix3 i (0 : Fin 1) ch) = ∑ j : Fin 10, ∑ r : Fin 5000, shapeCast S2x50000x64 x shapeCasts_S100000x64_S2x50000x64 (ix3 i ⟨j.val * 5000 + r.val, by omega⟩ ch))
    (ha2 : ∀ (i : Fin 2) (ch : Fin 64), a2 (ix3 i (0 : Fin 1) ch) = ∑ j : Fin 10, ∑ r : Fin 5000, shapeCast S2x50000x64 x shapeCasts_S100000x64_S2x50000x64 (ix3 i ⟨j.val * 5000 + r.val, by omega⟩ ch) * shapeCast S2x50000x64 x shapeCasts_S100000x64_S2x50000x64 (ix3 i ⟨j.val * 5000 + r.val, by omega⟩ ch))
    (hscale : ∀ ch : Fin 64, scale (ix2 (0 : Fin 1) ch) = γ (ix1 ch) * Ideal.rsqrt (Ideal.div (∑ j2 : Fin 2, ∑ i : Fin 2, a2 (ix3 i (0 : Fin 1) (chan (grp ch) j2))) cnt - Ideal.div (∑ j2 : Fin 2, ∑ i : Fin 2, a1 (ix3 i (0 : Fin 1) (chan (grp ch) j2))) cnt * Ideal.div (∑ j2 : Fin 2, ∑ i : Fin 2, a1 (ix3 i (0 : Fin 1) (chan (grp ch) j2))) cnt + eps))
    (hshift : ∀ ch : Fin 64, shift (ix2 (0 : Fin 1) ch) = β (ix1 ch) - (Ideal.div (∑ j2 : Fin 2, ∑ i : Fin 2, a1 (ix3 i (0 : Fin 1) (chan (grp ch) j2))) cnt * γ (ix1 ch)) * Ideal.rsqrt (Ideal.div (∑ j2 : Fin 2, ∑ i : Fin 2, a2 (ix3 i (0 : Fin 1) (chan (grp ch) j2))) cnt - Ideal.div (∑ j2 : Fin 2, ∑ i : Fin 2, a1 (ix3 i (0 : Fin 1) (chan (grp ch) j2))) cnt * Ideal.div (∑ j2 : Fin 2, ∑ i : Fin 2, a1 (ix3 i (0 : Fin 1) (chan (grp ch) j2))) cnt + eps)) :
    (fun i : S100000x64.Idx => max (x i * scale (ix2 (0 : Fin 1) (i 1)) + shift (ix2 (0 : Fin 1) (i 1))) zero32) = kerTab x γ β := by
  have h1 : ∀ g : Fin 32, ∑ j2 : Fin 2, ∑ i : Fin 2, a1 (ix3 i (0 : Fin 1) (chan g j2)) = ksum x g := fun g =>
    parts_sum x a1 (fun i ch => by
      rw [ha1]
      exact Finset.sum_congr rfl fun j _ => Finset.sum_congr rfl fun r _ => halves_row x i j r ch) g
  have h2 : ∀ g : Fin 32, ∑ j2 : Fin 2, ∑ i : Fin 2, a2 (ix3 i (0 : Fin 1) (chan g j2)) = ksum (fun i => x i * x i) g := fun g =>
    parts_sum (fun i => x i * x i) a2 (fun i ch => by
      rw [ha2]
      exact Finset.sum_congr rfl fun j _ => Finset.sum_congr rfl fun r _ => by rw [halves_row x i j r ch]) g
  have hsc : ∀ ch : Fin 64, scale (ix2 (0 : Fin 1) ch) = kscale x γ ch := fun ch => by
    rw [hscale, h1, h2]; rfl
  have hsh : ∀ ch : Fin 64, shift (ix2 (0 : Fin 1) ch) = kshift x γ β ch := fun ch => by
    rw [hshift, h1, h2]; rfl
  funext i
  obtain ⟨n, ch, rfl⟩ : ∃ (n : Fin 100000) (ch : Fin 64), i = ix2 n ch := ⟨i 0, i 1, eq_ix2 i⟩
  show max (x (ix2 n ch) * scale (ix2 (0 : Fin 1) ch) + shift (ix2 (0 : Fin 1) ch)) zero32 = kerTabAt x γ β n ch
  rw [hsc, hsh]
  rfl

end Cert.KernelIdeal.KerGlue

end
-- ==== Proof.LibRealSums.lean ====
/-
  Finite sums of real numbers inside the extended reals, and the few float constants a mean over 64 rows and a
  batch-norm scale spell.

  On the extended reals multiplication does not distribute over a sum that mixes `⊤` and `⊥`; on real numbers it
  does. So a sum of products of real numbers, scaled by a real number, is the sum of the products with the scale moved
  inside each term:  (Σ_k x_k · w_k) · v = Σ_k x_k · (w_k · v).  A sum over `a + b` consecutive terms is the sum of its
  two stretches (associativity only, no finiteness). A quotient by the real 64 is the product with 1/64. For a real
  `s ≥ 0` and the f32 constant `ε = 0x3727C5AC > 0`, `γ · rsqrt (s + ε)` is a real number when `γ` is.
-/
import Mathlib.Algebra.BigOperators.Fin
import Idealize.ShloMosaic.PureOps.Ideal

noncomputable section

namespace Cert.LibRealSums

open Idealize.ShloMosaic

/-- An extended real that is a real number. -/
def IsReal (x : EReal) : Prop := ∃ r : ℝ, x = (r : EReal)

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of products of reals, times a real, is the sum with the factor moved inside each product. -/
theorem sum_mul_real {n : ℕ} (x w : Fin n → EReal) (v : EReal) (hx : ∀ k, IsReal (x k)) (hw : ∀ k, IsReal (w k))
    (hv : IsReal v) : (∑ k, x k * w k) * v = ∑ k, x k * (w k * v) := by
  choose xr hxr using hx
  choose wr hwr using hw
  obtain ⟨vr, rfl⟩ := hv
  simp only [hxr, hwr, ← EReal.coe_mul, ← coe_sum]
  congr 1
  rw [Finset.sum_mul]
  exact Finset.sum_congr rfl fun k _ => mul_assoc _ _ _

/-- A sum of products of reals is a real. -/
theorem isReal_sum_mul {n : ℕ} (x w : Fin n → EReal) (hx : ∀ k, IsReal (x k)) (hw : ∀ k, IsReal (w k)) :
    IsReal (∑ k, x k * w k) := by
  choose xr hxr using hx
  choose wr hwr using hw
  refine ⟨∑ k, xr k * wr k, ?_⟩
  simp only [hxr, hwr, ← EReal.coe_mul, ← coe_sum]

/-- On real numbers multiplication distributes over a sum of two. -/
theorem add_mul_real (a b v : EReal) (ha : IsReal a) (hb : IsReal b) (hv : IsReal v) : (a + b) * v = a * v + b * v := by
  obtain ⟨ar, rfl⟩ := ha
  obtain ⟨br, rfl⟩ := hb
  obtain ⟨vr, rfl⟩ := hv
  rw [← EReal.coe_add, ← EReal.coe_mul, ← EReal.coe_mul, ← EReal.coe_mul, ← EReal.coe_add, add_mul]

/-- The sum of two reals is a real. -/
theorem isReal_add (a b : EReal) (ha : IsReal a) (hb : IsReal b) : IsReal (a + b) := by
  obtain ⟨ar, rfl⟩ := ha
  obtain ⟨br, rfl⟩ := hb
  exact ⟨ar + br, (EReal.coe_add ar br).symm⟩

/-- `∑ k < a + b, f k = ∑ k < a, f k + ∑ k < b, f (a + k)`. -/
theorem sum_two {M : Type*} [AddCommMonoid M] (a b n : ℕ) (h : n = a + b) (f : Fin n → M) :
    ∑ k, f k = ∑ k : Fin a, f ⟨k.val, by have := k.isLt; omega⟩ + ∑ k : Fin b, f ⟨a + k.val, by have := k.isLt; omega⟩ := by
  subst h
  rw [Fin.sum_univ_add]
  rfl

/-- The f32 pattern of `+0.0` is the real zero. -/
theorem ofBits_zero : Ideal.ofBits .f32 0x00000000#32 = (0 : EReal) := by
  simp [Ideal.ofBits, Ideal.ieee]

/-- The f32 pattern `0x42800000` is the real 64. -/
theorem ofBits_64 : Ideal.ofBits .f32 0x42800000#32 = ((64 : ℝ) : EReal) := by
  simp [Ideal.ofBits, Ideal.ieee, -EReal.coe_mul]; norm_num

/-- The f32 pattern `0x3C800000` is the real 1/64. -/
theorem ofBits_inv64 : Ideal.ofBits .f32 0x3C800000#32 = ((1 / 64 : ℝ) : EReal) := by
  simp [Ideal.ofBits, Ideal.ieee, -EReal.coe_mul]; norm_num

/-- A quotient by the f32 constant 64 is the product with the f32 constant 1/64. -/
theorem div_64 (x : EReal) :
    Ideal.div x (Ideal.ofBits .f32 0x42800000#32) = x * Ideal.ofBits .f32 0x3C800000#32 := by
  rw [ofBits_64, ofBits_inv64]
  exact Ideal.div_coe (by norm_num) x

/-- The f32 pattern `0x3727C5AC` (the batch-norm ε) is a positive real. -/
theorem eps_pos : ∃ e : ℝ, 0 < e ∧ Ideal.ofBits .f32 0x3727C5AC#32 = (e : EReal) := by
  refine ⟨(10995116 : ℝ) / 2 ^ 40, by positivity, ?_⟩
  simp [Ideal.ofBits, Ideal.ieee, -EReal.coe_mul]; norm_num

/-- For real `γ`, real `s ≥ 0` and the constant ε, `γ · rsqrt (s + ε)` is a real number. -/
theorem scale_isReal (g s : EReal) (hg : IsReal g) (hs : ∃ r : ℝ, 0 ≤ r ∧ s = (r : EReal)) :
    IsReal (g * Ideal.rsqrt (s + Ideal.ofBits .f32 0x3727C5AC#32)) := by
  obtain ⟨gr, rfl⟩ := hg
  obtain ⟨sr, hs0, rfl⟩ := hs
  obtain ⟨e, he, hE⟩ := eps_pos
  rw [hE, ← EReal.coe_add, Ideal.rsqrt_coe, if_neg (by linarith), if_neg (by linarith), ← EReal.coe_mul]
  exact ⟨_, rfl⟩

end Cert.LibRealSums

end
-- ==== Proof.LibSumBlocks.lean ====
/-
  Regrouping a finite sum into consecutive blocks, in any commutative monoid.

  A sum over the first `a * b` naturals is the sum over `a` consecutive blocks of `b` of each block's sum, position `q` of
  block `s` being the natural `s * b + q`; and so is a sum over `Fin n` when `n = a * b`. Only associativity and
  commutativity of the addition are used: in the extended reals the law holds at the infinities too. It is the law
  between a contraction taken whole and the same contraction accumulated block by block along the contracted axis.
-/
import Mathlib.Algebra.BigOperators.Fin

namespace Cert.Lib.SumBlocks

/-- A sum over the first `a * b` naturals is the sum, over `a` consecutive blocks of `b`, of each block's sum. -/
theorem sum_range_blocks {β : Type*} [AddCommMonoid β] (g : ℕ → β) (a b : ℕ) :
    ∑ n ∈ Finset.range (a * b), g n = ∑ s ∈ Finset.range a, ∑ q ∈ Finset.range b, g (s * b + q) := by
  induction a with
  | zero => simp
  | succ a ih => rw [Nat.succ_mul, Finset.sum_range_add, ih, Finset.sum_range_succ]

/-- A function of `n` positions, continued by zero to every natural, so that a position may be named by block number and
    offset without a bound in its type. -/
def onNat {β : Type*} [Zero β] {n : ℕ} (f : Fin n → β) (k : ℕ) : β := if h : k < n then f ⟨k, h⟩ else 0

/-- At a natural below `n` the continuation is the function itself. -/
theorem onNat_of_lt {β : Type*} [Zero β] {n : ℕ} (f : Fin n → β) (k : ℕ) (h : k < n) : onNat f k = f ⟨k, h⟩ :=
  dif_pos h

/-- A sum over `n = a * b` positions is the sum over the `a` blocks of `b` of each block's sum, the block's positions
    indexed by `Fin b`. -/
theorem sum_fin_blocks {β : Type*} [AddCommMonoid β] {n : ℕ} (a b : ℕ) (hn : n = a * b) (f : Fin n → β) :
    ∑ k : Fin n, f k = ∑ s ∈ Finset.range a, ∑ q : Fin b, onNat f (s * b + q.val) := by
  subst hn
  have h1 : ∑ k : Fin (a * b), f k = ∑ k : Fin (a * b), onNat f k.val :=
    Finset.sum_congr rfl fun k _ => (onNat_of_lt f k.val k.isLt).symm
  rw [h1, Fin.sum_univ_eq_sum_range (onNat f) (a * b), sum_range_blocks]
  exact Finset.sum_congr rfl fun s _ => (Fin.sum_univ_eq_sum_range (fun q => onNat f (s * b + q)) b).symm

end Cert.Lib.SumBlocks
-- ==== Proof.LibNormCollapse.lean ====
/-
  A BatchNorm layer followed by a GraphNorm layer over one graph, per feature, is ONE affine map of the input.

  For a feature column h over the finite node set, with n the number of nodes, write m for the mean of h and v for the
  mean of the squared deviations (h - m)^2. BatchNorm gives y = (h - m) * r * g + b with r = 1 / sqrt (v + eps).
  The mean of y is exactly b, because the deviations h - m sum to zero; so GraphNorm's centred value is
  xs = y - a * b = (h - m) * r * g + c with c = b * (1 - a), and the mean of xs^2 is g^2 * r^2 * v + c^2
  = g^2 * v / (v + eps) + c^2, the cross term vanishing for the same reason and r^2 being 1 / (v + eps).
  Hence GraphNorm's output xs * r' * g' + b' (r' the reciprocal root of that mean plus eps) equals h * A + B with
  A = r * g * r' * g' and B = c * r' * g' + b' - m * A, and v itself is (mean of h^2) - m^2.
-/
import Mathlib.Analysis.SpecialFunctions.Pow.Real
import Mathlib.Algebra.BigOperators.Group.Finset.Basic
import Mathlib.Tactic

open scoped BigOperators

namespace NormCollapse

variable {ι : Type} [Fintype ι]

/-- The deviations from the mean sum to zero. -/
theorem sum_dev (h : ι → ℝ) (n : ℝ) (hn : n = Fintype.card ι) (hn0 : n ≠ 0) :
    ∑ j, (h j - (∑ k, h k) / n) = 0 := by
  rw [Finset.sum_sub_distrib, Finset.sum_const, Finset.card_univ, nsmul_eq_mul, ← hn]
  field_simp
  ring

/-- The mean of the squared deviations is the mean of the squares minus the square of the mean. -/
theorem var_eq (h : ι → ℝ) (n : ℝ) (hn : n = Fintype.card ι) (hn0 : n ≠ 0) :
    (∑ j, (h j - (∑ k, h k) / n) * (h j - (∑ k, h k) / n)) / n
      = (∑ j, h j * h j) / n - ((∑ k, h k) / n) * ((∑ k, h k) / n) := by
  have e : ∀ j, (h j - (∑ k, h k) / n) * (h j - (∑ k, h k) / n)
      = h j * h j - 2 * ((∑ k, h k) / n) * h j + ((∑ k, h k) / n) * ((∑ k, h k) / n) := fun j => by ring
  simp only [e, Finset.sum_add_distrib, Finset.sum_sub_distrib, ← Finset.mul_sum, Finset.sum_const,
    Finset.card_univ, nsmul_eq_mul, ← hn]
  field_simp
  ring

/-- The mean of the squared deviations is not negative. -/
theorem var_nonneg (h : ι → ℝ) (n : ℝ) (hn0 : 0 < n) (m : ℝ) :
    0 ≤ (∑ j, (h j - m) * (h j - m)) / n :=
  div_nonneg (Finset.sum_nonneg fun j _ => mul_self_nonneg _) hn0.le

noncomputable section

/-- The mean of a column over the nodes, with n the number of nodes. -/
def mean (n : ℝ) (f : ι → ℝ) : ℝ := (∑ k, f k) / n

/-- BatchNorm of a column: centre by the mean, scale by the reciprocal root of the variance plus eps, then g and b. -/
def bnorm (n ε g b : ℝ) (h : ι → ℝ) : ι → ℝ := fun i =>
  (h i - mean n h) * (Real.sqrt (mean n (fun j => (h j - mean n h) * (h j - mean n h)) + ε))⁻¹ * g + b

/-- GraphNorm of a column over one graph: subtract a times the mean, scale by the reciprocal root of the mean
    square plus eps, then g and b. -/
def gnorm (n ε g b a : ℝ) (y : ι → ℝ) : ι → ℝ := fun i =>
  (y i - a * mean n y)
    * (Real.sqrt (mean n (fun j => (y j - a * mean n y) * (y j - a * mean n y)) + ε))⁻¹ * g + b

/-- The slope of the collapsed affine map, from the column's sum s and sum of squares q. -/
def slope (n ε g b gg a s q : ℝ) : ℝ :=
  (Real.sqrt ((q / n - (s / n) * (s / n)) + ε))⁻¹ * g
    * (Real.sqrt ((g * g * (q / n - (s / n) * (s / n)) / ((q / n - (s / n) * (s / n)) + ε)
        + b * (1 - a) * (b * (1 - a))) + ε))⁻¹ * gg

/-- The intercept of the collapsed affine map. -/
def icept (n ε g b gg gb a s q : ℝ) : ℝ :=
  b * (1 - a)
    * (Real.sqrt ((g * g * (q / n - (s / n) * (s / n)) / ((q / n - (s / n) * (s / n)) + ε)
        + b * (1 - a) * (b * (1 - a))) + ε))⁻¹ * gg + gb
    - s / n * slope n ε g b gg a s q

/-- The mean of a BatchNorm output is exactly its shift b. -/
theorem mean_bnorm (h : ι → ℝ) (n ε g b : ℝ) (hn : n = Fintype.card ι) (hn0 : n ≠ 0) :
    mean n (bnorm n ε g b h) = b := by
  unfold mean bnorm mean
  have e : ∀ i, (h i - (∑ k, h k) / n) * (Real.sqrt ((∑ k, (h k - (∑ k, h k) / n) * (h k - (∑ k, h k) / n)) / n + ε))⁻¹ * g + b
      = (Real.sqrt ((∑ k, (h k - (∑ k, h k) / n) * (h k - (∑ k, h k) / n)) / n + ε))⁻¹ * g * (h i - (∑ k, h k) / n) + b :=
    fun i => by ring
  simp only [e, Finset.sum_add_distrib, ← Finset.mul_sum, sum_dev h n hn hn0, Finset.sum_const, Finset.card_univ,
    nsmul_eq_mul, ← hn, mul_zero, zero_add]
  field_simp

/-- BatchNorm then GraphNorm is the affine map with the collapsed slope and intercept. -/
theorem collapse (h : ι → ℝ) (n ε g b gg gb a : ℝ) (hn : n = Fintype.card ι) (hn0 : 0 < n) (hε : 0 < ε) (i : ι) :
    gnorm n ε gg gb a (bnorm n ε g b h) i
      = h i * slope n ε g b gg a (∑ k, h k) (∑ k, h k * h k)
        + icept n ε g b gg gb a (∑ k, h k) (∑ k, h k * h k) := by
  have hn0' : n ≠ 0 := hn0.ne'
  -- the variance in its two spellings
  set m := (∑ k, h k) / n with hm
  have hv : (∑ k, h k * h k) / n - m * m = (∑ j, (h j - m) * (h j - m)) / n := (var_eq h n hn hn0').symm
  set v := (∑ j, (h j - m) * (h j - m)) / n with hvdef
  have hv0 : 0 ≤ v := var_nonneg h n hn0 m
  have hpos : 0 < v + ε := by linarith
  set r := (Real.sqrt (v + ε))⁻¹ with hr
  have hr2 : r * r = (v + ε)⁻¹ := by rw [hr, ← mul_inv, Real.mul_self_sqrt hpos.le]
  -- the BatchNorm output and its mean
  have hb : ∀ j, bnorm n ε g b h j = (h j - m) * r * g + b := fun j => rfl
  have hmean : mean n (bnorm n ε g b h) = b := mean_bnorm h n ε g b hn hn0'
  -- the centred value and its mean square
  have hxs : ∀ j, bnorm n ε g b h j - a * mean n (bnorm n ε g b h) = (h j - m) * r * g + b * (1 - a) := fun j => by
    rw [hmean, hb]; ring
  have hsq : mean n (fun j => (bnorm n ε g b h j - a * mean n (bnorm n ε g b h))
      * (bnorm n ε g b h j - a * mean n (bnorm n ε g b h)))
      = g * g * v / (v + ε) + b * (1 - a) * (b * (1 - a)) := by
    have e : ∀ j, (bnorm n ε g b h j - a * mean n (bnorm n ε g b h)) * (bnorm n ε g b h j - a * mean n (bnorm n ε g b h))
        = r * r * (g * g) * ((h j - m) * (h j - m)) + 2 * r * g * (b * (1 - a)) * (h j - m)
          + b * (1 - a) * (b * (1 - a)) := fun j => by rw [hxs]; ring
    have hdev : ∑ j, (h j - m) = 0 := sum_dev h n hn hn0'
    rw [funext e]
    unfold mean
    simp only [Finset.sum_add_distrib, ← Finset.mul_sum, hdev, Finset.sum_const,
      Finset.card_univ, nsmul_eq_mul, ← hn, mul_zero, add_zero]
    rw [hr2]
    have : ∑ j, (h j - m) * (h j - m) = n * v := by rw [hvdef]; field_simp
    rw [this]
    field_simp
  unfold gnorm
  rw [hsq, hxs]
  unfold icept slope
  rw [hv]
  ring

end

end NormCollapse
-- ==== Proof.NormAlgebra.lean ====
/-
  The two arrangements of the group normalisation are the same table on real inputs.

  The blockwise sum and the whole-table sum add the same 200000 terms in a different order, so they agree in any
  commutative monoid, the extended reals included; hence the two means agree with no hypothesis at all. For a real-valued
  table the mean is a real number μ, and over the reals  Σ (x − μ)² / N = Σ x² / N − μ²  (N = 200000 the number of
  terms), so the two variances agree and are a real number v ≥ 0. The guard ε is a positive real, so the reciprocal root
  of v + ε is a real number r, and  x·(γ·r) + (β − (μ·γ)·r) = ((x − μ)·r)·γ + β  is an identity of real numbers.
-/
import proofs.«153627_j25400436588659_2_alg».proof.Proof.Spec
import proofs.«153627_j25400436588659_2_alg».proof.Proof.LibRealSums
import proofs.«153627_j25400436588659_2_alg».proof.Proof.LibSumBlocks
import proofs.«153627_j25400436588659_2_alg».proof.Proof.LibNormCollapse

noncomputable section

namespace Cert.GN

open Idealize.ShloMosaic Idealize.ShloMosaic.ValueIdx Cert.LibRealSums Cert.Lib.SumBlocks

/-! ## The same terms in two orders -/

/-- A sum over the 100000 rows is the sum over 2 halves, 10 blocks a half and 5000 rows a block. -/
theorem sum_rows {M : Type*} [AddCommMonoid M] (F : Fin 100000 → M) :
    ∑ n, F n = ∑ i : Fin 2, ∑ j : Fin 10, ∑ r : Fin 5000, F (row i j r) := by
  rw [sum_fin_blocks 2 50000 (by norm_num) F, Finset.sum_range]
  refine Finset.sum_congr rfl fun i _ => ?_
  rw [sum_fin_blocks 10 5000 (by norm_num) (fun q : Fin 50000 => onNat F (i.val * 50000 + q.val)), Finset.sum_range]
  refine Finset.sum_congr rfl fun j _ => ?_
  refine Finset.sum_congr rfl fun r _ => ?_
  have hi := i.isLt
  have hj := j.isLt
  have hr := r.isLt
  rw [onNat_of_lt _ _ (by omega), onNat_of_lt _ _ (by omega)]
  refine congrArg F (Fin.ext ?_)
  show i.val * 50000 + (j.val * 5000 + r.val) = i.val * 50000 + j.val * 5000 + r.val
  omega

/-- The blockwise sum and the whole-table sum of a group are the same sum. -/
theorem ksum_eq_rsum (f : SX.Idx → EReal) (g : Fin 32) : ksum f g = rsum f g := by
  unfold ksum rsum
  rw [sum_rows (fun n => ∑ j2 : Fin 2, f (ix2 n (chan g j2))), Finset.sum_comm]
  refine Finset.sum_congr rfl fun i _ => ?_
  rw [Finset.sum_comm]
  refine Finset.sum_congr rfl fun j _ => ?_
  rw [Finset.sum_comm]

theorem kmean_eq_rmean (x : SX.Idx → EReal) (g : Fin 32) : kmean x g = rmean x g := by
  unfold kmean rmean
  rw [ksum_eq_rsum]

/-! ## Real inputs -/

/-- The count of a group's entries is the real 200000. -/
theorem cnt_real : cnt = ((200000 : ℝ) : EReal) := by
  unfold cnt
  simp [Ideal.ofBits, Ideal.ieee, -EReal.coe_mul]; norm_num

/-- A group's sum, mean and variance of a real table, as real numbers. -/
def sumR (F : SX.Idx → ℝ) (g : Fin 32) : ℝ := ∑ n : Fin 100000, ∑ j2 : Fin 2, F (ix2 n (chan g j2))
def muR (X : SX.Idx → ℝ) (g : Fin 32) : ℝ := sumR X g * (1 / 200000)
def varR (X : SX.Idx → ℝ) (g : Fin 32) : ℝ := sumR (fun i => (X i - muR X g) * (X i - muR X g)) g * (1 / 200000)

theorem rsum_coe (F : SX.Idx → ℝ) (g : Fin 32) : rsum (fun i => ((F i : ℝ) : EReal)) g = ((sumR F g : ℝ) : EReal) := by
  simp only [rsum, sumR, coe_sum]

theorem div_cnt (a : ℝ) : Ideal.div (a : EReal) cnt = ((a * (1 / 200000) : ℝ) : EReal) := by
  rw [cnt_real, Ideal.div_coe (by norm_num), ← EReal.coe_mul]

theorem rmean_coe (X : SX.Idx → ℝ) (g : Fin 32) : rmean (fun i => ((X i : ℝ) : EReal)) g = ((muR X g : ℝ) : EReal) := by
  rw [rmean, rsum_coe, div_cnt, muR]

theorem rvar_coe (X : SX.Idx → ℝ) (g : Fin 32) : rvar (fun i => ((X i : ℝ) : EReal)) g = ((varR X g : ℝ) : EReal) := by
  unfold rvar
  rw [rmean_coe]
  have h : (fun i : SX.Idx => (((X i : ℝ) : EReal) - ((muR X g : ℝ) : EReal)) * (((X i : ℝ) : EReal) - ((muR X g : ℝ) : EReal)))
      = fun i => (((X i - muR X g) * (X i - muR X g) : ℝ) : EReal) := by
    funext i; rw [← EReal.coe_sub, ← EReal.coe_mul]
  rw [h, rsum_coe, div_cnt, varR]

/-- Over the reals the mean of the squared deviations is the mean of the squares minus the squared mean. -/
theorem var_real (X : SX.Idx → ℝ) (g : Fin 32) :
    varR X g = sumR (fun i => X i * X i) g * (1 / 200000) - muR X g * muR X g := by
  have hc : (200000 : ℝ) = Fintype.card (Fin 100000 × Fin 2) := by
    rw [Fintype.card_prod, Fintype.card_fin, Fintype.card_fin]; norm_num
  have h := NormCollapse.var_eq (ι := Fin 100000 × Fin 2) (fun p => X (ix2 p.1 (chan g p.2))) 200000 hc (by norm_num)
  simp only [Fintype.sum_prod_type] at h
  simp only [varR, muR, sumR, mul_one_div]
  exact h

theorem var_nonneg (X : SX.Idx → ℝ) (g : Fin 32) : 0 ≤ varR X g := by
  unfold varR sumR
  refine mul_nonneg (Finset.sum_nonneg fun n _ => Finset.sum_nonneg fun j _ => mul_self_nonneg _) (by norm_num)

theorem kvar_coe (X : SX.Idx → ℝ) (g : Fin 32) : kvar (fun i => ((X i : ℝ) : EReal)) g = ((varR X g : ℝ) : EReal) := by
  unfold kvar
  rw [ksum_eq_rsum, kmean_eq_rmean, rmean_coe]
  have h : (fun i : SX.Idx => ((X i : ℝ) : EReal) * ((X i : ℝ) : EReal)) = fun i => ((X i * X i : ℝ) : EReal) := by
    funext i; rw [← EReal.coe_mul]
  rw [h, rsum_coe, div_cnt, ← EReal.coe_mul, ← EReal.coe_sub, var_real]

theorem kinv_eq_rinv (X : SX.Idx → ℝ) (g : Fin 32) :
    kinv (fun i => ((X i : ℝ) : EReal)) g = rinv (fun i => ((X i : ℝ) : EReal)) g := by
  unfold kinv rinv
  rw [kvar_coe, rvar_coe]

/-- The reciprocal root of variance plus guard is a real number. -/
theorem rinv_real (X : SX.Idx → ℝ) (g : Fin 32) : ∃ r : ℝ, rinv (fun i => ((X i : ℝ) : EReal)) g = (r : EReal) := by
  obtain ⟨e, he, hE⟩ := eps_pos
  have hv := var_nonneg X g
  unfold rinv eps
  rw [rvar_coe, hE, ← EReal.coe_add, Ideal.rsqrt_coe, if_neg (by linarith), if_neg (by linarith)]
  exact ⟨_, rfl⟩

/-- One entry: the folded affine map is the centred, scaled, shifted value. -/
theorem entry_real (X : SX.Idx → ℝ) (Γ B : SC.Idx → ℝ) (n : Fin 100000) (ch : Fin 64) :
    kerTabAt (fun i => ((X i : ℝ) : EReal)) (fun i => ((Γ i : ℝ) : EReal)) (fun i => ((B i : ℝ) : EReal)) n ch
      = refTabAt (fun i => ((X i : ℝ) : EReal)) (fun i => ((Γ i : ℝ) : EReal)) (fun i => ((B i : ℝ) : EReal)) n ch := by
  obtain ⟨R, hR⟩ := rinv_real X (grp ch)
  unfold kerTabAt refTabAt kscale kshift
  rw [kinv_eq_rinv, kmean_eq_rmean, rmean_coe, hR]
  refine congrArg (max · zero32) ?_
  simp only [← EReal.coe_mul, ← EReal.coe_sub, ← EReal.coe_add]
  congr 1
  ring

/-- On real inputs the blockwise table is the whole-table one. -/
theorem kerTab_eq_refTab (x : SX.Idx → EReal) (γ β : SC.Idx → EReal)
    (hx : ∀ i, ∃ r : ℝ, x i = (r : EReal)) (hγ : ∀ i, ∃ r : ℝ, γ i = (r : EReal)) (hβ : ∀ i, ∃ r : ℝ, β i = (r : EReal)) :
    kerTab x γ β = refTab x γ β := by
  choose X hX using hx
  choose Γ hΓ using hγ
  choose B hB using hβ
  obtain rfl : x = fun i => ((X i : ℝ) : EReal) := funext hX
  obtain rfl : γ = fun i => ((Γ i : ℝ) : EReal) := funext hΓ
  obtain rfl : β = fun i => ((B i : ℝ) : EReal) := funext hB
  funext i
  exact entry_real X Γ B (i 0) (i 1)

end Cert.GN

end
-- ==== Proof.FiniteInputs.lean ====
/-
  From the precondition to real entries.

  The precondition is the conjunction, over the four float arrays, of "every entry's absolute value is below +∞". An
  extended real whose absolute value max x (−x) is below ⊤ is neither ⊤ nor ⊥ (at ⊥ the negation is ⊤), so it is a
  real number.
-/
import proofs.«153627_j25400436588659_2_alg».proof.Pre_finite_inputs
import proofs.«153627_j25400436588659_2_alg».proof.Proof.Gen.Pre_finite_inputs
import Idealize.ShloMosaic.Lib.ReduceAll
import Idealize.ShloMosaic.Lib.ValueIdx
import Idealize.ShloMosaic.Lib.ValueLayout
import Idealize.ShloMosaic.PureOps.Ideal.Laws

noncomputable section

namespace Cert.FiniteInputs

open Idealize.ShloMosaic Idealize.ShloMosaic.ValueIdx Cert.Pre_finite_inputs

instance : Subsingleton S_.Idx := ⟨fun a b => funext fun d => d.elim0⟩

/-- The f32 word of +∞ is ⊤. -/
theorem inf_bits : Ideal.ofBits .f32 0x7F800000#32 = (⊤ : EReal) := by
  simp [Ideal.ofBits, Ideal.ieee]

/-- An extended real whose absolute value compares below +∞ is a real number. -/
theorem real_of_abs_lt (x : EReal)
    (h : Ideal.cmp .olt (max x (-x)) (Ideal.ofBits .f32 0x7F800000#32) = 1#1) : ∃ r : ℝ, x = (r : EReal) := by
  rw [inf_bits] at h
  have h2 : max x (-x) < ⊤ := by
    by_contra hc
    simp [Ideal.cmp, hc] at h
  induction x using EReal.rec with
  | bot => simp at h2
  | coe r => exact ⟨r, rfl⟩
  | top => simp at h2

/-- One array: its all-entries test being 1 makes every entry a real number. -/
theorem real_of_all {s : Shape} {axes : List (Fin s.rank)} (a : FVec Ideal s .f32)
    (hb : S_.BroadcastsInDim s (![] : Fin 0 → Fin s.rank)) (hr : s.ReducesTo axes S_) (hu : 0 < S_.numel)
    (init : IVec S_ 1)
    (h : Host.reduce IntOp.andi
        (cmpf .olt (Host.absf a) (broadcastInDim s ![] hb (constant (F := Ideal) S_ .f32 0x7F800000#32))) init hr hu ix0 = 1#1)
    (i : s.Idx) : ∃ r : ℝ, a i = (r : EReal) := by
  have e := Host.reduce_andi_all _ init hr hu ix0 h i
  exact real_of_abs_lt (a i) e

theorem real_of_pre [Cert.Pre_finite_inputs.Facts] (a0 : FVec Ideal S100000x64 .f32) (a1 : IVec S300000x9 32)
    (a2 a3 : FVec Ideal S64 .f32) (a4 : FVec Ideal S576x64 .f32)
    (h : Cert.Pre_finite_inputs.fn (F := Ideal) a0 a1 a2 a3 a4 = (fun _ => 1#1)) :
    (∀ i, ∃ r : ℝ, a0 i = (r : EReal)) ∧ (∀ i, ∃ r : ℝ, a2 i = (r : EReal)) ∧ (∀ i, ∃ r : ℝ, a3 i = (r : EReal))
      ∧ (∀ i, ∃ r : ℝ, a4 i = (r : EReal)) := by
  have h0 := congrFun h ix0
  dsimp only [Cert.Pre_finite_inputs.fn, Cert.Pre_finite_inputs.fn_part1] at h0
  obtain ⟨h123, h4⟩ := IntOp.andi_eq_one.1 h0
  obtain ⟨h12, h3⟩ := IntOp.andi_eq_one.1 h123
  obtain ⟨h1, h2⟩ := IntOp.andi_eq_one.1 h12
  exact ⟨real_of_all a0 _ _ _ _ h1, real_of_all a2 _ _ _ _ h2, real_of_all a3 _ _ _ _ h3, real_of_all a4 _ _ _ _ h4⟩

end Cert.FiniteInputs

end
-- ==== Proof.KerWhole.lean ====
/-
  The idealized kernel's result, as the specification's function of the argument arrays.

  The boundary contents of the run are followed from the launch memory to the result:
  the table is viewed as two halves; the first pipeline leaves the halves' column sums and sums of squares; the host
  forms each channel's scale `γ · r` and shift `β − (μ · γ) · r` from the group's mean `μ` and inverse deviation `r`;
  the second pipeline leaves `relu (x · scale + shift)`, which is the specification's blockwise arrangement of the
  group normalisation and so — every entry being a real number under the precondition — its whole-table arrangement;
  the host gathers nine rows per fine row; the third pipeline multiplies by the weights.
-/
import proofs.«153627_j25400436588659_2_alg».proof.Defs
import proofs.«153627_j25400436588659_2_alg».proof.Proof.KerRun
import proofs.«153627_j25400436588659_2_alg».proof.Proof.KerSums
import proofs.«153627_j25400436588659_2_alg».proof.Proof.KerStats
import proofs.«153627_j25400436588659_2_alg».proof.Proof.KerTable
import proofs.«153627_j25400436588659_2_alg».proof.Proof.KerRows
import proofs.«153627_j25400436588659_2_alg».proof.Proof.KerProduct
import proofs.«153627_j25400436588659_2_alg».proof.Proof.KerGlue
import proofs.«153627_j25400436588659_2_alg».proof.Proof.NormAlgebra
import proofs.«153627_j25400436588659_2_alg».proof.Proof.FiniteInputs
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.KerWhole

open Cert.KernelIdeal Cert.KernelIdeal.Gen

variable (m : (ℓ : Loc nD τ sig) → Buf (Elt Ideal) ℓ) (ρ : Dev nD → PrngReg)

/-- Before the first pipeline the table is viewed as two halves of 50000 rows. -/
theorem halves_entry (c : Dev nD) :
    V1 m ρ c main_v0 = shapeCast S2x50000x64 (m ((c : Thread nD τ).loc main_arg0)) Gen.shapeCasts_S100000x64_S2x50000x64 := by
  show StableHlo.after hostOps0 (W0 m ρ c) (Proc.devRef .tc main_v0) = _
  after_results
  rfl

/-- After the first pipeline its two result arrays hold the halves' column sums and sums of squares. -/
theorem sums_exit (c : Dev nD) : W2 m ρ c (Proc.devRef .tc main_v1_0) = KerSums.halfSums (V1 m ρ) c :=
  (W2_arr m ρ c 1).trans (KerSums.sums_final (V1 m ρ) c)
theorem squares_exit (c : Dev nD) : W2 m ρ c (Proc.devRef .tc main_v1_1) = KerSums.halfSquares (V1 m ρ) c :=
  (W2_arr m ρ c 2).trans (KerSums.squares_final (V1 m ρ) c)

/-- After the second pipeline its result array is `relu (x · scale + shift)` of the table and the two rows. -/
theorem table_exit (c : Dev nD) :
    W4 m ρ c (Proc.devRef .tc main_v27) = KerValue.affRelu (V3 m ρ c main_arg0) (V3 m ρ c main_v22) (V3 m ρ c main_v26) :=
  (W4_arr m ρ c 3).trans (KerValue.table_eq (V3 m ρ) c)

/-- After the third pipeline the result is the product of the gathered rows with the weights. -/
theorem result_exit (c : Dev nD) :
    W6 m ρ c (Proc.devRef .tc main_v37) = Cert.GN.prod (V5 m ρ c main_v35) (V5 m ρ c main_v36) :=
  (W6_arr m ρ c 2).trans (KerValue.product_eq (V5 m ρ) c)

/-- The normalised table is the specification's blockwise arrangement: the scale and shift rows are `γ · r` and
    `β − (μ · γ) · r` of the group statistics taken from the halves' sums. -/
theorem table_spec (c : Dev nD) :
    W4 m ρ c (Proc.devRef .tc main_v27)
      = Cert.GN.kerTab (m ((c : Thread nD τ).loc main_arg0)) (m ((c : Thread nD τ).loc main_arg2)) (m ((c : Thread nD τ).loc main_arg3)) := by
  rw [table_exit, KerStats.table_entry, KerStats.scale_entry, KerStats.shift_entry, sums_exit, squares_exit]
  exact KerGlue.kerTab_of_parts _ _ _ _ _ _ _
    (fun i ch => by rw [KerSums.halfSums_apply, halves_entry]; rfl)
    (fun i ch => by rw [KerSums.halfSquares_apply, halves_entry]; rfl)
    (fun ch => KerStats.scaleOf_apply _ _ _ ch)
    (fun ch => KerStats.shiftOf_apply _ _ _ _ ch)

/-- The result: the gathered rows of the whole-table arrangement of the normalisation, times the weights — when every
    entry of the table, `γ` and `β` is a real number. -/
theorem result_spec (c : Dev nD)
    (hx : ∀ i, ∃ r : ℝ, m ((c : Thread nD τ).loc main_arg0) i = (r : EReal))
    (hγ : ∀ i, ∃ r : ℝ, m ((c : Thread nD τ).loc main_arg2) i = (r : EReal))
    (hβ : ∀ i, ∃ r : ℝ, m ((c : Thread nD τ).loc main_arg3) i = (r : EReal)) :
    W6 m ρ c (Proc.devRef .tc main_v37)
      = Cert.GN.prod (KerRows.rowsOf (Cert.GN.refTab (m ((c : Thread nD τ).loc main_arg0)) (m ((c : Thread nD τ).loc main_arg2))
          (m ((c : Thread nD τ).loc main_arg3))) (m ((c : Thread nD τ).loc main_arg1))) (m ((c : Thread nD τ).loc main_arg4)) := by
  rw [result_exit, KerRows.rows_entry, KerRows.weights_entry, table_spec, Cert.GN.kerTab_eq_refTab _ _ _ hx hγ hβ]

/-- The run, read: under the precondition every weakly fair execution terminates with the result at the
    specification's function of the argument arrays, and the arguments unchanged. -/
theorem run_spec (hpre : Cert.Pre_KernelIdeal m) :
    θ_run (defs (F := Ideal)) (onTc (τ := τ) (main (F := Ideal))) ⟨m, fun _ => 0, ρ⟩ (fun r => ∀ c : Dev nD,
      r.2.mem ((c.tc : Thread nD τ).loc main_v37)
        = Cert.GN.prod (KerRows.rowsOf (Cert.GN.refTab (m ((c.tc : Thread nD τ).loc main_arg0)) (m ((c.tc : Thread nD τ).loc main_arg2))
            (m ((c.tc : Thread nD τ).loc main_arg3))) (m ((c.tc : Thread nD τ).loc main_arg1))) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => by
      obtain ⟨hx, hγ, hβ, -⟩ := Cert.FiniteInputs.real_of_pre _ _ _ _ _ (hpre c)
      exact ⟨(h c).1.trans (result_spec m ρ c hx hγ hβ), (h c).2⟩)
    (KerRun.run_named m ρ)

end Cert.KernelIdeal.KerWhole

end
-- ==== Proof.RefTable.lean ====
/-
  The reference side.  The jnp reference normalises the table by reshaping it to [100000, 32, 2], summing over rows and
  the two members of each group, dividing by 200000, centring, squaring, summing again, adding ε, taking the inverse
  square root, scaling by γ, shifting by β and clamping at zero; it then gathers nine rows per fine row, lays them side
  by side and multiplies by the weight matrix.  Read element by element, its table is the specification's whole-table
  arrangement `refTab`, and its result is the product of the gathered rows of that table with the weights.  The gather
  is kept as one function `rowsOf` of the table it reads and is never opened.
-/
import proofs.«153627_j25400436588659_2_alg».proof.Proof.Gen.ReferenceIdeal.Read
import proofs.«153627_j25400436588659_2_alg».proof.Proof.Spec

noncomputable section

namespace Cert.ReferenceIdeal.RefValue

open Cert.ReferenceIdeal Cert.ReferenceIdeal.Gen Cert.ReferenceIdeal.Read Cert.GN Idealize.ShloMosaic Idealize.ShloMosaic.ValueIdx

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- Dropping axes 0 and 2 of a [100000, 32, 2] index keeps its middle coordinate. -/
theorem drop02 (n : Fin 100000) (g' : Fin 32) (j2 : Fin 2) :
    reducesTo_S100000x32x2_S32_d0_2.drop (ix3 n g' j2) = ix1 g' := by
  funext b
  match b with
  | ⟨0, _⟩ =>
    exact Fin.ext (Shape.ReducesTo.drop_apply_val_of_eq reducesTo_S100000x32x2_S32_d0_2 (ix3 n g' j2) 0 1 (by decide) (by decide))

/-- The host's sum over axes 0 and 2 of a [100000, 32, 2] array, read at group `g`: the initial value plus the sum over
    all rows and both members of the group. -/
theorem reduce02_apply (y : S100000x32x2.Idx → EReal) (init : S_.Idx → EReal) (g : Fin 32) :
    Host.reduceAdd (F := Ideal) (φ := .f32) y init reducesTo_S100000x32x2_S32_d0_2 h_S_ (ix1 g)
      = init ix0 + ∑ n : Fin 100000, ∑ j2 : Fin 2, y (ix3 n g j2) := by
  show Ideal.hostReduceAdd reducesTo_S100000x32x2_S32_d0_2 y (init (Shape.Idx.first h_S_)) (ix1 g) = _
  unfold Ideal.hostReduceAdd
  rw [eq_ix0 (Shape.Idx.first h_S_), Finset.sum_filter, sum_idx3]
  refine congrArg (init ix0 + ·) (Finset.sum_congr rfl fun n _ => ?_)
  simp only [drop02]
  rw [Finset.sum_eq_single g]
  · refine Finset.sum_congr rfl fun j2 _ => ?_
    rw [if_pos rfl]
  · intro g' _ hne
    refine Finset.sum_eq_zero fun j2 _ => ?_
    rw [if_neg]
    intro h
    exact hne (by have := congrFun h 0; exact this)
  · intro h; exact absurd (Finset.mem_univ g) h

/-- The index of the [1, 32, 1] per-group arrays at group `g`. -/
abbrev gix (g : Fin 32) : S1x32x1.Idx := ix3 (0 : Fin 1) g (0 : Fin 1)

/-- The reshape [100000, 64] → [100000, 32, 2] puts channel `2g + j2` of a row at (row, g, j2). -/
theorem v0_apply (x0 : (⟨S100000x64, .f32⟩ : BufTy).Contents (Elt Ideal)) (n : Fin 100000) (g : Fin 32) (j2 : Fin 2) :
    Read.val_main_v0 (F := Ideal) x0 (ix3 n g j2) = x0 (ix2 n (chan g j2)) := by
  rw [Read.val_main_v0_apply]
  refine congrArg x0 (funext fun a => Fin.ext ?_)
  match a with
  | ⟨0, _⟩ =>
    show ((n.val * 32 + g.val) * 2 + j2.val) / 64 = n.val
    have := g.isLt; have := j2.isLt; omega
  | ⟨1, _⟩ =>
    show ((n.val * 32 + g.val) * 2 + j2.val) % 64 = 2 * g.val + j2.val
    have := g.isLt; have := j2.isLt; omega

/-- The group sums of the table. -/
theorem v1_apply (x0 : (⟨S100000x64, .f32⟩ : BufTy).Contents (Elt Ideal)) (g : Fin 32) :
    Read.val_main_v1 (F := Ideal) x0 (ix1 g) = rsum x0 g := by
  unfold Read.val_main_v1
  generalize hy : Read.val_main_v0 (F := Ideal) x0 = y
  rw [reduce02_apply y _ g, Read.val_main_cst_apply, Ideal.ofBits_def, Ideal.ofBits_zero_f32, zero_add]
  unfold rsum
  refine Finset.sum_congr rfl fun n _ => Finset.sum_congr rfl fun j2 _ => ?_
  rw [← hy, v0_apply]

/-- The group means. -/
theorem v4_apply (x0 : (⟨S100000x64, .f32⟩ : BufTy).Contents (Elt Ideal)) (g : Fin 32) :
    Read.val_main_v4 (F := Ideal) x0 (gix g) = rmean x0 g := by
  rw [Read.val_main_v4_apply, Read.val_main_v2_apply, Read.val_main_v3_apply, Read.val_main_cst_0_apply,
    Ideal.hostDivf_def, Ideal.ofBits_def]
  have e : Read.idx_main_v2 (gix g) = ix1 g := funext fun a => by
    match a with
    | ⟨0, _⟩ => rfl
  rw [e, v1_apply]
  rfl

/-- The broadcast of a per-group array back over rows and members reads the group's entry. -/
theorem idx5_eq (n : Fin 100000) (g : Fin 32) (j2 : Fin 2) : Read.idx_main_v5 (ix3 n g j2) = gix g := funext fun a => by
  match a with
  | ⟨0, _⟩ => rfl
  | ⟨1, _⟩ => rfl
  | ⟨2, _⟩ => rfl

/-- The centred entries. -/
theorem v6_apply (x0 : (⟨S100000x64, .f32⟩ : BufTy).Contents (Elt Ideal)) (n : Fin 100000) (g : Fin 32) (j2 : Fin 2) :
    Read.val_main_v6 (F := Ideal) x0 (ix3 n g j2) = x0 (ix2 n (chan g j2)) - rmean x0 g := by
  rw [Read.val_main_v6_apply, Read.val_main_v5_apply, idx5_eq, v4_apply, v0_apply, Ideal.subf_def]

theorem v13_apply (x0 : (⟨S100000x64, .f32⟩ : BufTy).Contents (Elt Ideal)) (n : Fin 100000) (g : Fin 32) (j2 : Fin 2) :
    Read.val_main_v13 (F := Ideal) x0 (ix3 n g j2) = x0 (ix2 n (chan g j2)) - rmean x0 g := by
  rw [Read.val_main_v13_apply, Read.val_main_v12_apply, show Read.idx_main_v12 (ix3 n g j2) = gix g from idx5_eq n g j2,
    v4_apply, v0_apply, Ideal.subf_def]

/-- The group sums of the squared centred entries. -/
theorem v8_apply (x0 : (⟨S100000x64, .f32⟩ : BufTy).Contents (Elt Ideal)) (g : Fin 32) :
    Read.val_main_v8 (F := Ideal) x0 (ix1 g)
      = rsum (fun i => (x0 i - rmean x0 g) * (x0 i - rmean x0 g)) g := by
  unfold Read.val_main_v8
  generalize hy : Read.val_main_v7 (F := Ideal) x0 = y
  rw [reduce02_apply y _ g, Read.val_main_cst_1_apply, Ideal.ofBits_def, Ideal.ofBits_zero_f32, zero_add]
  unfold rsum
  refine Finset.sum_congr rfl fun n _ => Finset.sum_congr rfl fun j2 _ => ?_
  rw [← hy, Read.val_main_v7_apply, v6_apply, Ideal.mulf_def]

/-- The group variances. -/
theorem v11_apply (x0 : (⟨S100000x64, .f32⟩ : BufTy).Contents (Elt Ideal)) (g : Fin 32) :
    Read.val_main_v11 (F := Ideal) x0 (gix g) = rvar x0 g := by
  rw [Read.val_main_v11_apply, Read.val_main_v9_apply, Read.val_main_v10_apply, Read.val_main_cst_2_apply,
    Ideal.hostDivf_def, Ideal.ofBits_def]
  have e : Read.idx_main_v9 (gix g) = ix1 g := funext fun a => by
    match a with
    | ⟨0, _⟩ => rfl
  rw [e, v8_apply]
  rfl

/-- The groups' inverse standard deviations. -/
theorem v16_apply (x0 : (⟨S100000x64, .f32⟩ : BufTy).Contents (Elt Ideal)) (g : Fin 32) :
    Read.val_main_v16 (F := Ideal) x0 (gix g) = rinv x0 g := by
  rw [Read.val_main_v16_apply, Read.val_main_v15_apply, Read.val_main_v14_apply, Read.val_main_cst_3_apply,
    v11_apply, Ideal.hostUnary_rsqrt_def, Ideal.addf_def, Ideal.ofBits_def]
  rfl

/-- The normalised entries, still in the [100000, 32, 2] arrangement. -/
theorem v18_apply (x0 : (⟨S100000x64, .f32⟩ : BufTy).Contents (Elt Ideal)) (n : Fin 100000) (g : Fin 32) (j2 : Fin 2) :
    Read.val_main_v18 (F := Ideal) x0 (ix3 n g j2) = (x0 (ix2 n (chan g j2)) - rmean x0 g) * rinv x0 g := by
  rw [Read.val_main_v18_apply, Read.val_main_v17_apply, show Read.idx_main_v17 (ix3 n g j2) = gix g from idx5_eq n g j2,
    v16_apply, v13_apply, Ideal.mulf_def]

/-- The member of its group a channel is. -/
def mem (ch : Fin 64) : Fin 2 := ⟨ch.val % 2, by omega⟩

theorem chan_grp_mem (ch : Fin 64) : chan (grp ch) (mem ch) = ch := Fin.ext (by
  show 2 * (ch.val / 2) + ch.val % 2 = ch.val
  omega)

/-- The reshape back [100000, 32, 2] → [100000, 64] reads channel `ch` of a row at (row, ch / 2, ch % 2). -/
theorem idx19_eq (n : Fin 100000) (ch : Fin 64) : Read.idx_main_v19 (ix2 n ch) = ix3 n (grp ch) (mem ch) :=
  funext fun a => Fin.ext (by
    match a with
    | ⟨0, _⟩ =>
      show (n.val * 64 + ch.val) / 64 = n.val
      have := ch.isLt; omega
    | ⟨1, _⟩ =>
      show (n.val * 64 + ch.val) / 2 % 32 = ch.val / 2
      have := ch.isLt; omega
    | ⟨2, _⟩ =>
      show (n.val * 64 + ch.val) % 2 = ch.val % 2
      have := ch.isLt; omega)

/-- The reference's normalised, rectified table is the whole-table arrangement of the specification. -/
theorem table_eq (x0 : (⟨S100000x64, .f32⟩ : BufTy).Contents (Elt Ideal)) (x2 x3 : (⟨S64, .f32⟩ : BufTy).Contents (Elt Ideal)) :
    Read.val_main_v26 (F := Ideal) x0 x2 x3 = Cert.GN.refTab x0 x2 x3 := by
  funext i
  obtain ⟨n, ch, rfl⟩ : ∃ (n : Fin 100000) (ch : Fin 64), i = ix2 n ch := ⟨i 0, i 1, eq_ix2 i⟩
  show _ = refTabAt x0 x2 x3 n ch
  rw [Read.val_main_v26_apply, Read.val_main_call0_v0_apply, Read.val_main_call0_cst_apply, Read.val_main_v25_apply,
    Read.val_main_v22_apply, Read.val_main_v24_apply, Read.val_main_v23_apply, Read.val_main_v21_apply,
    Read.val_main_v20_apply, Read.val_main_v19_apply, idx19_eq, v18_apply, chan_grp_mem,
    Ideal.maximumf_def, Ideal.addf_def, Ideal.mulf_def, Ideal.ofBits_def]
  have e2 : Read.idx_main_v20 (Read.idx_main_v21 (ix2 n ch)) = ix1 ch := funext fun a => by
    match a with
    | ⟨0, _⟩ => rfl
  have e3 : Read.idx_main_v23 (Read.idx_main_v24 (ix2 n ch)) = ix1 ch := funext fun a => by
    match a with
    | ⟨0, _⟩ => rfl
  rw [e2, e3]
  rfl

/-- The gathered rows of ANY table `T`: the reference's own gather (by the index array made non-negative) and reshape
    to [300000, 576], applied to `T`. -/
def rowsOf (T : (⟨S100000x64, .f32⟩ : BufTy).Contents (Elt Ideal)) (x1 : (⟨S300000x9, .i32⟩ : BufTy).Contents (Elt Ideal)) :
    (⟨S300000x576, .f32⟩ : BufTy).Contents (Elt Ideal) :=
  shapeCast _ (Host.gather gather_S100000x64_S300000x9x1_S300000x9x64_2_0_n_n_0_2_164 T (Read.val_main_v32 (F := Ideal) x1))
    shapeCasts_S300000x9x64_S300000x576

/-- The reference's gathered rows are `rowsOf` of its normalised table. -/
theorem v34_eq (x0 : (⟨S100000x64, .f32⟩ : BufTy).Contents (Elt Ideal)) (x1 : (⟨S300000x9, .i32⟩ : BufTy).Contents (Elt Ideal))
    (x2 x3 : (⟨S64, .f32⟩ : BufTy).Contents (Elt Ideal)) :
    Read.val_main_v34 (F := Ideal) x0 x1 x2 x3 = rowsOf (Read.val_main_v26 (F := Ideal) x0 x2 x3) x1 := rfl

/-- The reference's result: the gathered rows of the specification's whole-table arrangement, times the weights. -/
theorem result_eq (x0 : (⟨S100000x64, .f32⟩ : BufTy).Contents (Elt Ideal)) (x1 : (⟨S300000x9, .i32⟩ : BufTy).Contents (Elt Ideal))
    (x2 x3 : (⟨S64, .f32⟩ : BufTy).Contents (Elt Ideal)) (x4 : (⟨S576x64, .f32⟩ : BufTy).Contents (Elt Ideal)) :
    Read.val_main_v35 (F := Ideal) x0 x1 x2 x3 x4 = Cert.GN.prod (rowsOf (Cert.GN.refTab x0 x2 x3) x1) x4 := by
  funext i
  obtain ⟨f, o, rfl⟩ : ∃ (f : Fin 300000) (o : Fin 64), i = ix2 f o := ⟨i 0, i 1, eq_ix2 i⟩
  show _ = prodAt (rowsOf (refTab x0 x2 x3) x1) x4 f o
  rw [Read.val_main_v35_apply, v34_eq, table_eq]
  unfold prodAt
  refine Finset.sum_congr rfl fun k _ => ?_
  have el : Read.lidx_main_v35 (ix2 f o) k = ix2 f k := funext fun a => by
    match a with
    | ⟨0, _⟩ => rfl
    | ⟨1, _⟩ => rfl
  have er : Read.ridx_main_v35 (ix2 f o) k = ix2 k o := funext fun a => by
    match a with
    | ⟨0, _⟩ => rfl
    | ⟨1, _⟩ => rfl
  rw [el, er]

end Cert.ReferenceIdeal.RefValue

end
-- ==== Proof.RefRun.lean ====
/-
  The reference's run read as the specification.  Every weakly fair execution of the reference terminates with its
  result array at the composed term of its 45 host operations applied to the argument arrays, the arguments unchanged;
  that composed term is the gathered rows of the specification's whole-table arrangement times the weight matrix.
-/
import proofs.«153627_j25400436588659_2_alg».proof.Defs
import proofs.«153627_j25400436588659_2_alg».proof.Proof.Gen.Pre_finite_inputs
import proofs.«153627_j25400436588659_2_alg».proof.Proof.RefTable

noncomputable section

namespace Cert.ReferenceIdeal.RefValue

open Cert.ReferenceIdeal Cert.ReferenceIdeal.Gen Cert.ReferenceIdeal.Read Cert.GN Idealize.ShloMosaic Idealize.ShloMosaic.TcCoe Idealize.SL.Sem

/-- The reference runs and leaves its argument arrays unchanged. -/
theorem frame_ri : Cert.frame_ReferenceIdeal := fun m ρ _ =>
  (θ_run Cert.ReferenceIdeal.defs _ _).mono (fun _ h c => (h c).2) (Cert.ReferenceIdeal.Value.run (F := Ideal) m ρ)

/-- The reference runs, its result is the product of the gathered rows of the specification's whole-table arrangement
    of its table, scale and shift arguments with its weight argument, and its argument arrays end unchanged. -/
theorem run_spec (m' : (ℓ : Loc nD τ sig) → Buf (Elt Ideal) ℓ) (ρ' : Dev nD → PrngReg) :
    θ_run (Cert.ReferenceIdeal.defs (F := Ideal)) (onTc (τ := τ) (Cert.ReferenceIdeal.main (F := Ideal))) ⟨m', fun _ => 0, ρ'⟩ (fun r => ∀ c : Dev nD,
      r.2.mem ((c.tc : Thread nD τ).loc main_v35) = Cert.GN.prod (rowsOf (Cert.GN.refTab (m' ((c.tc : Thread nD τ).loc main_arg0)) (m' ((c.tc : Thread nD τ).loc main_arg2)) (m' ((c.tc : Thread nD τ).loc main_arg3))) (m' ((c.tc : Thread nD τ).loc main_arg1))) (m' ((c.tc : Thread nD τ).loc main_arg4))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)) :=
  (θ_run Cert.ReferenceIdeal.defs _ _).mono
    (fun _ h c => ⟨(h c).1.trans ((Read.val_main_v35_eq _ _ _ _ _).trans (result_eq _ _ _ _ _)), (h c).2⟩)
    (Cert.ReferenceIdeal.Value.run (F := Ideal) m' ρ')

end Cert.ReferenceIdeal.RefValue

end
-- ==== Proof.RowsAgree.lean ====
/-
  The two programs gather with one function.

  Both programs make the index array non-negative (a negative row number has 100000 added), view it 300000 × 9 × 1,
  gather those rows of a 100000 × 64 table and lay each fine row's nine gathered rows side by side.  They print the same
  operations and the same gather description, each under its own names; on the extended reals the tables' number formats
  do not matter, so the two functions of a table and an index array are one function.
-/
import proofs.«153627_j25400436588659_2_alg».proof.Proof.KerRows
import proofs.«153627_j25400436588659_2_alg».proof.Proof.RefTable

noncomputable section

open Idealize.ShloMosaic

namespace Cert.RowsAgree

/-- The two printed gather descriptions are the same record. -/
theorem gather_eq :
    Cert.KernelIdeal.gather_S100000x64_S300000x9x1_S300000x9x64_2_0_n_n_0_2_164
      = Cert.ReferenceIdeal.gather_S100000x64_S300000x9x1_S300000x9x64_2_0_n_n_0_2_164 := rfl

/-- The kernel's gathered rows and the reference's are the same function of the table and the index array. -/
theorem rows_agree (T : (⟨2, ![100000, 64]⟩ : Shape).Idx → EReal) (x1 : IVec ⟨2, ![300000, 9]⟩ 32) :
    Cert.KernelIdeal.KerRows.rowsOf T x1 = Cert.ReferenceIdeal.RefValue.rowsOf T x1 := by
  unfold Cert.KernelIdeal.KerRows.rowsOf Cert.ReferenceIdeal.RefValue.rowsOf
  unfold Cert.ReferenceIdeal.Read.val_main_v32 Cert.ReferenceIdeal.Read.val_main_v31 Cert.ReferenceIdeal.Read.val_main_v30
    Cert.ReferenceIdeal.Read.val_main_v29 Cert.ReferenceIdeal.Read.val_main_v28 Cert.ReferenceIdeal.Read.val_main_v27
    Cert.ReferenceIdeal.Read.val_main_c Cert.ReferenceIdeal.Read.val_main_c_4
  rw [gather_eq]

end Cert.RowsAgree

end
-- ==== Proof.lean ====
/-
  The certificate of a fused "group norm, relu, gather, matrix product" kernel against its jnp reference.

  Both programs take a table `x` of 100000 rows and 64 channels, an index array of 300000 × 9 row numbers, per-channel
  `γ` and `β`, and a 576 × 64 weight matrix.  The table is normalised group by group (32 groups of two neighbouring
  channels; mean and variance over all rows and both channels), scaled by `γ`, shifted by `β` and clipped at zero; each
  fine row gathers nine rows of the result side by side and is multiplied by the weights.

  The kernel does it in three pipelines with host operations between: column sums of `x` and `x²` accumulated over
  2 × 10 blocks of 5000 rows; the statistics folded into one scale and one shift per channel, `γ · r` and
  `β − (μ · γ) · r` with the variance taken as `E[x²] − μ²`, and applied as `relu (x · scale + shift)`; the gather; the
  product in blocks of 10000 rows.  The reference normalises as `((x − μ) · r) · γ + β` with the variance
  `E[(x − μ)²]` and multiplies in one piece.  On the extended reals the two arrangements are one function as soon as
  every entry of `x`, `γ`, `β` is a real number (the precondition): the regrouping of the sums is free, the variance
  identity and the folding of the affine map are distributivity over real numbers, and `v + ε > 0` keeps the inverse
  square root real.  The gather and the products are then the same operations on the same table.

  `frame_*`: each program runs to the end, nothing faulting, its arguments unchanged.  `preserves`: the idealized kernel
  is the kernel's own text (no operation was rewritten).  `algebraic`: the two idealized runs end with equal results.
-/
import proofs.«153627_j25400436588659_2_alg».proof.Defs
import proofs.«153627_j25400436588659_2_alg».proof.Proof.Gen.Kernel
import proofs.«153627_j25400436588659_2_alg».proof.Proof.Gen.Kernel.Skeleton
import proofs.«153627_j25400436588659_2_alg».proof.Proof.Gen.Kernel.Launch
import proofs.«153627_j25400436588659_2_alg».proof.Proof.Gen.Kernel.Points
import proofs.«153627_j25400436588659_2_alg».proof.Proof.Gen.Kernel.Frame
import proofs.«153627_j25400436588659_2_alg».proof.Proof.Gen.KernelIdeal
import proofs.«153627_j25400436588659_2_alg».proof.Proof.Gen.KernelIdeal.Skeleton
import proofs.«153627_j25400436588659_2_alg».proof.Proof.Gen.KernelIdeal.Launch
import proofs.«153627_j25400436588659_2_alg».proof.Proof.Gen.KernelIdeal.Points
import proofs.«153627_j25400436588659_2_alg».proof.Proof.Gen.KernelIdeal.Frame
import proofs.«153627_j25400436588659_2_alg».proof.Proof.Gen.ReferenceIdeal
import proofs.«153627_j25400436588659_2_alg».proof.Proof.Gen.Pre_finite_inputs
import proofs.«153627_j25400436588659_2_alg».proof.Proof.KerWhole
import proofs.«153627_j25400436588659_2_alg».proof.Proof.RefRun
import proofs.«153627_j25400436588659_2_alg».proof.Proof.RowsAgree
import Idealize.ShloMosaic.Adequacy
import Idealize.ShloMosaic.Init

noncomputable section

namespace Cert.Proof

open Idealize.ShloMosaic Idealize.SL.Sem

/-- The kernel, as printed, runs to the end with its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The ideal pass rewrote no operation of the kernel. -/
theorem preserves : Cert.preserves_Kernel_KernelIdeal := trivial

/-- From memories agreeing on the arguments, the idealized kernel and the idealized reference both end at the gathered
    rows of the normalised table times the weights: the kernel's run read through its three pipelines, the reference's
    through its operations, and the two gathers one function. -/
theorem algebraic : Cert.algebraic_KernelIdeal_ReferenceIdeal := by
  intro m ρ m' ρ' hpre hagree
  refine ⟨_, Cert.KernelIdeal.KerWhole.run_spec m ρ hpre, ?_⟩
  refine (θ_run Cert.ReferenceIdeal.defs _ _).mono (fun _ h c => ⟨(h c).1.trans ?_, (h c).2⟩)
    (Cert.ReferenceIdeal.RefValue.run_spec m' ρ')
  obtain ⟨e0, e1, e2, e3, e4⟩ := hagree c
  rw [e0, e1, e2, e3, e4, Cert.RowsAgree.rows_agree]

theorem claim : Cert.Claim :=
  ⟨Cert.Kernel.Gen.facts, Cert.KernelIdeal.Gen.facts, Cert.ReferenceIdeal.Gen.facts, Cert.Pre_finite_inputs.Gen.facts,
    frame_k, frame_ki, Cert.ReferenceIdeal.RefValue.frame_ri, preserves, algebraic⟩

end Cert.Proof

end
